-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S1000000x128 : Shape := ⟨2, ![1000000, 128]⟩
abbrev S4096x64 : Shape := ⟨2, ![4096, 64]⟩
abbrev S256x1 : Shape := ⟨2, ![256, 1]⟩
abbrev S1 : Shape := ⟨1, ![1]⟩
abbrev S128x1 : Shape := ⟨2, ![128, 1]⟩
abbrev S500000 : Shape := ⟨1, ![500000]⟩
abbrev S1000000 : Shape := ⟨1, ![1000000]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S4096x64 : S_.BroadcastsInDim S4096x64 (![] : Fin 0 → Fin S4096x64.rank)
  reducesTo_S4096x64_S_d0_1 : S4096x64.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S1 .f32) (main_arg5 : FVec F S128x1 .f32) (main_arg6 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x256 .f32) (main_arg1 : FVec F S1000000x128 .f32) (main_arg2 : FVec F S4096x64 .f32) (main_arg3 : FVec F S256x1 .f32) (main_arg4 : FVec F S1 .f32) (main_arg5 : FVec F S128x1 .f32) (main_arg6 : FVec F S1 .f32) (main_arg7 : IVec S500000 32) (main_arg8 : IVec S1000000 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S500000x256 : Shape := ⟨2, ![500000, 256]⟩
abbrev S1000000x128 : Shape := ⟨2, ![1000000, 128]⟩
abbrev S4096x64 : Shape := ⟨2, ![4096, 64]⟩
abbrev S256x1 : Shape := ⟨2, ![256, 1]⟩
abbrev S1 : Shape := ⟨1, ![1]⟩
abbrev S128x1 : Shape := ⟨2, ![128, 1]⟩
abbrev S500000 : Shape := ⟨1, ![500000]⟩
abbrev S1000000 : Shape := ⟨1, ![1000000]⟩
abbrev S4000x256 : Shape := ⟨2, ![4000, 256]⟩
abbrev S4000x1 : Shape := ⟨2, ![4000, 1]⟩
abbrev S1x1 : Shape := ⟨2, ![1, 1]⟩
abbrev S8000x128 : Shape := ⟨2, ![8000, 128]⟩
abbrev S8000x1 : Shape := ⟨2, ![8000, 1]⟩
abbrev S_ : Shape := ⟨0, ![]⟩
abbrev S4096x256 : Shape := ⟨2, ![4096, 256]⟩
abbrev S500000x1 : Shape := ⟨2, ![500000, 1]⟩
abbrev S4096x128 : Shape := ⟨2, ![4096, 128]⟩
abbrev S1000000x1 : Shape := ⟨2, ![1000000, 1]⟩
abbrev S4096x448 : Shape := ⟨2, ![4096, 448]⟩

abbrev nBuf : Space → Nat
  | .hbm => 20
  | .vmem => 12
  | .smem => 0
  | _ => 0

abbrev bufTy : (tb : Table) → Fin (tcTables nBuf tb) → BufTy
  | .hbm, ⟨0, _⟩ => ⟨S500000x256, .f32⟩
  | .hbm, ⟨1, _⟩ => ⟨S1000000x128, .f32⟩
  | .hbm, ⟨2, _⟩ => ⟨S4096x64, .f32⟩
  | .hbm, ⟨3, _⟩ => ⟨S256x1, .f32⟩
  | .hbm, ⟨4, _⟩ => ⟨S1, .f32⟩
  | .hbm, ⟨5, _⟩ => ⟨S128x1, .f32⟩
  | .hbm, ⟨6, _⟩ => ⟨S1, .f32⟩
  | .hbm, ⟨7, _⟩ => ⟨S500000, .i32⟩
  | .hbm, ⟨8, _⟩ => ⟨S1000000, .i32⟩
  | .hbm, ⟨9, _⟩ => ⟨S500000x256, .f32⟩
  | .hbm, ⟨10, _⟩ => ⟨S1000000x128, .f32⟩
  | .hbm, ⟨11, _⟩ => ⟨S_, .f32⟩
  | .hbm, ⟨12, _⟩ => ⟨S4096x256, .f32⟩
  | .hbm, ⟨13, _⟩ => ⟨S500000x1, .i32⟩
  | .hbm, ⟨14, _⟩ => ⟨S4096x256, .f32⟩
  | .hbm, ⟨15, _⟩ => ⟨S_, .f32⟩
  | .hbm, ⟨16, _⟩ => ⟨S4096x128, .f32⟩
  | .hbm, ⟨17, _⟩ => ⟨S1000000x1, .i32⟩
  | .hbm, ⟨18, _⟩ => ⟨S4096x128, .f32⟩
  | .hbm, ⟨19, _⟩ => ⟨S4096x448, .f32⟩
  | .local _ .vmem, ⟨0, _⟩ => ⟨S4000x256, .f32⟩
  | .local _ .vmem, ⟨1, _⟩ => ⟨S4000x256, .f32⟩
  | .local _ .vmem, ⟨2, _⟩ => ⟨S256x1, .f32⟩
  | .local _ .vmem, ⟨3, _⟩ => ⟨S1, .f32⟩
  | .local _ .vmem, ⟨4, _⟩ => ⟨S4000x256, .f32⟩
  | .local _ .vmem, ⟨5, _⟩ => ⟨S4000x256, .f32⟩
  | .local _ .vmem, ⟨6, _⟩ => ⟨S8000x128, .f32⟩
  | .local _ .vmem, ⟨7, _⟩ => ⟨S8000x128, .f32⟩
  | .local _ .vmem, ⟨8, _⟩ => ⟨S128x1, .f32⟩
  | .local _ .vmem, ⟨9, _⟩ => ⟨S1, .f32⟩
  | .local _ .vmem, ⟨10, _⟩ => ⟨S8000x128, .f32⟩
  | .local _ .vmem, ⟨11, _⟩ => ⟨S8000x128, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S4000x256_S4000x256_0_0 : ∀ a, (![0, 0] : Fin 2 → Nat) a + S4000x256.size a ≤ S4000x256.size a
  h_S4000x256 : 0 < S4000x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  bitsLt_bf16_f32 : FTy.bits .bf16 < FTy.bits .f32
  shapeCasts_S1_S1x1 : S1.ShapeCasts S1x1
  broadcasts_S1x1_S4000x1 : S1x1.Broadcasts S4000x1
  broadcasts_S4000x1_S4000x256 : S4000x1.Broadcasts S4000x256
  inb_S8000x128_S8000x128_0_0 : ∀ a, (![0, 0] : Fin 2 → Nat) a + S8000x128.size a ≤ S8000x128.size a
  h_S8000x128 : 0 < S8000x128.numel
  inb_S128x1_S128x1_0_0 : ∀ a, (![0, 0] : Fin 2 → Nat) a + S128x1.size a ≤ S128x1.size a
  h_S128x1 : 0 < S128x1.numel
  broadcasts_S1x1_S8000x1 : S1x1.Broadcasts S8000x1
  broadcasts_S8000x1_S8000x128 : S8000x1.Broadcasts S8000x128
  bcast_S_S4096x256 : S_.BroadcastsInDim S4096x256 (![] : Fin 0 → Fin S4096x256.rank)
  bcast_S500000_S500000x1_0 : S500000.BroadcastsInDim S500000x1 (![0] : Fin 1 → Fin S500000x1.rank)
  bcast_S_S4096x128 : S_.BroadcastsInDim S4096x128 (![] : Fin 0 → Fin S4096x128.rank)
  bcast_S1000000_S1000000x1_0 : S1000000.BroadcastsInDim S1000000x1 (![0] : Fin 1 → Fin S1000000x1.rank)
  concatenates_S4096x256_S4096x128_S4096x64_S4096x448_d1 : Shape.Concatenates [S4096x256, S4096x128, S4096x64] S4096x448 1
  dot_S4000x256_S256x1_S4000x1_1_0_0_1_n_n_wf : DotDims.WF S4000x256 S256x1 S4000x1 [1] [0] [0] [1] [] []
  dot_S8000x128_S128x1_S8000x1_1_0_0_1_n_n_wf : DotDims.WF S8000x128 S128x1 S8000x1 [1] [0] [0] [1] [] []
  scatter_S4096x256_S500000x1_S500000x256_1_0_0_1_wf : ScatterDims.WF S4096x256 S500000x1 S500000x256 [1] [0] [0] 1
  scatter_S4096x128_S1000000x1_S1000000x128_1_0_0_1_wf : ScatterDims.WF S4096x128 S1000000x1 S1000000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S500000x256.size a
  hwx0_0 : ∀ i : grid0.Coords, EltTy.bits .f32 = 32 ∨ (Rect.block (s := S500000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S256x1.size a
  hwx0_1 : ∀ i : grid0.Coords, EltTy.bits .f32 = 32 ∨ (Rect.block (s := S256x1) S256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S500000x256.size a
  hwx0_3 : ∀ i : grid0.Coords, EltTy.bits .f32 = 32 ∨ (Rect.block (s := S500000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1000000x128.size a
  hwx1_0 : ∀ i : grid1.Coords, EltTy.bits .f32 = 32 ∨ (Rect.block (s := S1000000x128) S8000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1.size a ≤ S1.size a
  hwx1_2 : ∀ i : grid1.Coords, EltTy.bits .f32 = 32 ∨ (Rect.block (s := S1) S1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S1000000x128.size a
  hwx1_3 : ∀ i : grid1.Coords, EltTy.bits .f32 = 32 ∨ (Rect.block (s := S1000000x128) S8000x128.size (cc1_transform_3 i) (hinb1_3 i)).WholeWords (EltTy.packing .f32)

variable [Facts₀]

def dot_S4000x256_S256x1_S4000x1_1_0_0_1_n_n : DotDims S4000x256 S256x1 S4000x1 where
  lhsContracting := [1]
  rhsContracting := [0]
  lhsNonContracting := [0]
  rhsNonContracting := [1]
  lhsBatch := []
  rhsBatch := []
  wf := dot_S4000x256_S256x1_S4000x1_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def scatter_S4096x256_S500000x1_S500000x256_1_0_0_1 : ScatterDims S4096x256 S500000x1 S500000x256 where
  updateWindowDims := [1]
  insertedWindowDims := [0]
  scatterDimsToOperandDims := [0]
  indexVectorDim := 1
  wf := scatter_S4096x256_S500000x1_S500000x256_1_0_0_1_wf
def scatter_S4096x128_S1000000x1_S1000000x128_1_0_0_1 : ScatterDims S4096x128 S1000000x1 S1000000x128 where
  updateWindowDims := [1]
  insertedWindowDims := [0]
  scatterDimsToOperandDims := [0]
  indexVectorDim := 1
  wf := scatter_S4096x128_S1000000x1_S1000000x128_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x256 : Shape := ⟨2, ![500000, 256]⟩
abbrev S1000000x128 : Shape := ⟨2, ![1000000, 128]⟩
abbrev S4096x64 : Shape := ⟨2, ![4096, 64]⟩
abbrev S256x1 : Shape := ⟨2, ![256, 1]⟩
abbrev S1 : Shape := ⟨1, ![1]⟩
abbrev S128x1 : Shape := ⟨2, ![128, 1]⟩
abbrev S500000 : Shape := ⟨1, ![500000]⟩
abbrev S1000000 : Shape := ⟨1, ![1000000]⟩
abbrev S500000x1 : Shape := ⟨2, ![500000, 1]⟩
abbrev S1x1 : Shape := ⟨2, ![1, 1]⟩
abbrev S_ : Shape := ⟨0, ![]⟩
abbrev S4096x256 : Shape := ⟨2, ![4096, 256]⟩
abbrev S1000000x1 : Shape := ⟨2, ![1000000, 1]⟩
abbrev S4096x128 : Shape := ⟨2, ![4096, 128]⟩
abbrev S4096x448 : Shape := ⟨2, ![4096, 448]⟩

abbrev nBuf : Space → Nat
  | .hbm => 46
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S1000000x128, .f32⟩
  | .hbm, ⟨2, _⟩ => ⟨S4096x64, .f32⟩
  | .hbm, ⟨3, _⟩ => ⟨S256x1, .f32⟩
  | .hbm, ⟨4, _⟩ => ⟨S1, .f32⟩
  | .hbm, ⟨5, _⟩ => ⟨S128x1, .f32⟩
  | .hbm, ⟨6, _⟩ => ⟨S1, .f32⟩
  | .hbm, ⟨7, _⟩ => ⟨S500000, .i32⟩
  | .hbm, ⟨8, _⟩ => ⟨S1000000, .i32⟩
  | .hbm, ⟨9, _⟩ => ⟨S500000x1, .f32⟩
  | .hbm, ⟨10, _⟩ => ⟨S1x1, .f32⟩
  | .hbm, ⟨11, _⟩ => ⟨S500000x1, .f32⟩
  | .hbm, ⟨12, _⟩ => ⟨S500000x1, .f32⟩
  | .hbm, ⟨13, _⟩ => ⟨S500000x1, .f32⟩
  | .hbm, ⟨14, _⟩ => ⟨S500000x1, .f32⟩
  | .hbm, ⟨15, _⟩ => ⟨S_, .f32⟩
  | .hbm, ⟨16, _⟩ => ⟨S500000x1, .f32⟩
  | .hbm, ⟨17, _⟩ => ⟨S500000x1, .f32⟩
  | .hbm, ⟨18, _⟩ => ⟨S_, .f32⟩
  | .hbm, ⟨19, _⟩ => ⟨S500000x1, .f32⟩
  | .hbm, ⟨20, _⟩ => ⟨S500000x1, .f32⟩
  | .hbm, ⟨21, _⟩ => ⟨S500000x256, .f32⟩
  | .hbm, ⟨22, _⟩ => ⟨S500000x256, .f32⟩
  | .hbm, ⟨23, _⟩ => ⟨S_, .f32⟩
  | .hbm, ⟨24, _⟩ => ⟨S4096x256, .f32⟩
  | .hbm, ⟨25, _⟩ => ⟨S500000x1, .i32⟩
  | .hbm, ⟨26, _⟩ => ⟨S4096x256, .f32⟩
  | .hbm, ⟨27, _⟩ => ⟨S1000000x1, .f32⟩
  | .hbm, ⟨28, _⟩ => ⟨S1x1, .f32⟩
  | .hbm, ⟨29, _⟩ => ⟨S1000000x1, .f32⟩
  | .hbm, ⟨30, _⟩ => ⟨S1000000x1, .f32⟩
  | .hbm, ⟨31, _⟩ => ⟨S1000000x1, .f32⟩
  | .hbm, ⟨32, _⟩ => ⟨S1000000x1, .f32⟩
  | .hbm, ⟨33, _⟩ => ⟨S_, .f32⟩
  | .hbm, ⟨34, _⟩ => ⟨S1000000x1, .f32⟩
  | .hbm, ⟨35, _⟩ => ⟨S1000000x1, .f32⟩
  | .hbm, ⟨36, _⟩ => ⟨S_, .f32⟩
  | .hbm, ⟨37, _⟩ => ⟨S1000000x1, .f32⟩
  | .hbm, ⟨38, _⟩ => ⟨S1000000x1, .f32⟩
  | .hbm, ⟨39, _⟩ => ⟨S1000000x128, .f32⟩
  | .hbm, ⟨40, _⟩ => ⟨S1000000x128, .f32⟩
  | .hbm, ⟨41, _⟩ => ⟨S_, .f32⟩
  | .hbm, ⟨42, _⟩ => ⟨S4096x128, .f32⟩
  | .hbm, ⟨43, _⟩ => ⟨S1000000x1, .i32⟩
  | .hbm, ⟨44, _⟩ => ⟨S4096x128, .f32⟩
  | .hbm, ⟨45, _⟩ => ⟨S4096x448, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  bcast_S500000x1_S500000x256_0_1 : S500000x1.BroadcastsInDim S500000x256 (![0, 1] : Fin 2 → Fin S500000x256.rank)
  bcast_S_S4096x256 : S_.BroadcastsInDim S4096x256 (![] : Fin 0 → Fin S4096x256.rank)
  bcast_S500000_S500000x1_0 : S500000.BroadcastsInDim S500000x1 (![0] : Fin 1 → Fin S500000x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S4096x128 : S_.BroadcastsInDim S4096x128 (![] : Fin 0 → Fin S4096x128.rank)
  bcast_S1000000_S1000000x1_0 : S1000000.BroadcastsInDim S1000000x1 (![0] : Fin 1 → Fin S1000000x1.rank)
  concatenates_S4096x256_S4096x128_S4096x64_S4096x448_d1 : Shape.Concatenates [S4096x256, S4096x128, S4096x64] S4096x448 1
  dot_S500000x256_S256x1_S500000x1_1_0_0_1_n_n_wf : DotDims.WF S500000x256 S256x1 S500000x1 [1] [0] [0] [1] [] []
  scatter_S4096x256_S500000x1_S500000x256_1_0_0_1_wf : ScatterDims.WF S4096x256 S500000x1 S500000x256 [1] [0] [0] 1
  dot_S1000000x128_S128x1_S1000000x1_1_0_0_1_n_n_wf : DotDims.WF S1000000x128 S128x1 S1000000x1 [1] [0] [0] [1] [] []
  scatter_S4096x128_S1000000x1_S1000000x128_1_0_0_1_wf : ScatterDims.WF S4096x128 S1000000x1 S1000000x128 [1] [0] [0] 1

variable [Facts₀]

def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf
def scatter_S4096x256_S500000x1_S500000x256_1_0_0_1 : ScatterDims S4096x256 S500000x1 S500000x256 where
  updateWindowDims := [1]
  insertedWindowDims := [0]
  scatterDimsToOperandDims := [0]
  indexVectorDim := 1
  wf := scatter_S4096x256_S500000x1_S500000x256_1_0_0_1_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S4096x128_S1000000x1_S1000000x128_1_0_0_1 : ScatterDims S4096x128 S1000000x1 S1000000x128 where
  updateWindowDims := [1]
  insertedWindowDims := [0]
  scatterDimsToOperandDims := [0]
  indexVectorDim := 1
  wf := scatter_S4096x128_S1000000x1_S1000000x128_1_0_0_1_wf

class Facts : Prop extends Facts₀ where

variable [Facts]
-- ==== Proof.BodyBits.lean ====
/-
  The two gate kernels of `Kernel` run one grid point at a time. Each grid point takes a block of rows of a feature array
  together with the whole weight column and the whole bias, and stores, into the matching block of rows of the result,
  every row multiplied by the logistic of (that row · weight column + bias). Stated here, for any float interpretation:
  what the result block holds after the body as a function of the three loaded blocks, that the body run on staging
  buffers holding those blocks ends there, and from it the per-point obligation the pipeline's launch rule asks for.
-/
import proofs.«177073_j77635828843232_1_alg».proof.Proof.Gen.Kernel.Launch
import proofs.«177073_j77635828843232_1_alg».proof.Proof.Gen.Kernel.Skeleton
import proofs.«177073_j77635828843232_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: the parameter both regions' statements take
variable (V : (c : Dev nD) → (b : Ref sig .tc) → Buf (Elt F) ((c : Thread nD τ).loc b))

/-! # Region 0: the gate kernel on atom rows, entered at buffer contents `V`

Window 0 is a block of rows of the feature array, window 1 the whole weight column, window 2 the whole bias,
window 3 the matching block of rows of the result. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block at every point, whether the point fetches it or its
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of the row block, of the weight column and of the bias: what the body loads and stores through. -/
abbrev rB0 : Rect S4000x256 := Rect.unit (s := S4000x256) ![0, 0] S4000x256.size inb_S4000x256_S4000x256_0_0
abbrev rW0 : Rect S256x1 := Rect.unit (s := S256x1) ![0, 0] S256x1.size inb_S256x1_S256x1_0_0
abbrev rb0 : Rect S1 := Rect.unit (s := S1) ![0] S1.size inb_S1_S1_0

/-- What the body leaves in the result window's buffer: its one store, of the gated rows computed from the three loads. -/
def out0_3 (x0 : Vec F S4000x256 .f32) (x1 : Vec F S256x1 .f32) (x2 : Vec F S1 .f32) : Vec F S4000x256 .f32 :=
  View.canon [⟨rB0, k0_pay1 (View.ld x0 rB0) (View.ld x1 rW0) (View.ld x2 rb0)⟩]

/-- The one store is of the whole buffer, so it covers it. -/
theorem cover0_3 (p0 : Vec F S4000x256 .f32) (y : S4000x256.Idx) :
    ∃ pc ∈ ([⟨rB0, p0⟩] : List (View.Piece (Elt F) S4000x256 .f32)), y ∈ pc.1.set :=
  View.cover_of_tiled [⟨rB0, p0⟩] S4000x256.size (by rfl) y

set_option maxHeartbeats 1000000 in
/-- The body on whole staging buffers, the three inputs at known contents and the result buffer at anything, runs to its
    continuation with the inputs as they were and the result buffer at `out0_3` of them. -/
theorem sound_kernel0 (c : Dev nD) (E : Set ℕ) (i : grid0.Coords)
    (arg1 : Memref sig .tc .vmem S4000x256 .f32) (harg1 : arg1.IsWhole) (arg2 : Memref sig .tc .vmem S256x1 .f32) (harg2 : arg2.IsWhole)
    (arg3 : Memref sig .tc .vmem S1 .f32) (harg3 : arg3.IsWhole) (arg4 : Memref sig .tc .vmem S4000x256 .f32) (harg4 : arg4.IsWhole)
    (x0 : Vec F S4000x256 .f32) (x1 : Vec F S256x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_weight_kernel i arg1 harg1 arg2 harg2 arg3 harg3 arg4 harg4) K := by
  simp only [cc0__gate_weight_kernel_eq_skeleton]; unfold cc0__gate_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input
    buffer still at its block and the result buffer at `out0_3` of the three blocks; the invariant keeps the scoped
    buffers no window stages and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the gate kernel on bond rows, entered at buffer contents `V`

Window 0 is a block of rows of the feature array, window 1 the whole weight column, window 2 the whole bias,
window 3 the matching block of rows of the result. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block at every point, whether the point fetches it or its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of the row block, of the weight column and of the bias: what the body loads and stores through. -/
abbrev rB1 : Rect S8000x128 := Rect.unit (s := S8000x128) ![0, 0] S8000x128.size inb_S8000x128_S8000x128_0_0
abbrev rW1 : Rect S128x1 := Rect.unit (s := S128x1) ![0, 0] S128x1.size inb_S128x1_S128x1_0_0
abbrev rb1 : Rect S1 := Rect.unit (s := S1) ![0] S1.size inb_S1_S1_0

/-- What the body leaves in the result window's buffer: its one store, of the gated rows computed from the three loads. -/
def out1_3 (x0 : Vec F S8000x128 .f32) (x1 : Vec F S128x1 .f32) (x2 : Vec F S1 .f32) : Vec F S8000x128 .f32 :=
  View.canon [⟨rB1, k1_pay1 (View.ld x0 rB1) (View.ld x1 rW1) (View.ld x2 rb1)⟩]

/-- The one store is of the whole buffer, so it covers it. -/
theorem cover1_3 (p0 : Vec F S8000x128 .f32) (y : S8000x128.Idx) :
    ∃ pc ∈ ([⟨rB1, p0⟩] : List (View.Piece (Elt F) S8000x128 .f32)), y ∈ pc.1.set :=
  View.cover_of_tiled [⟨rB1, p0⟩] S8000x128.size (by rfl) y

set_option maxHeartbeats 1000000 in
/-- The body on whole staging buffers, the three inputs at known contents and the result buffer at anything, runs to its
    continuation with the inputs as they were and the result buffer at `out1_3` of them. -/
theorem sound_kernel1 (c : Dev nD) (E : Set ℕ) (i : grid1.Coords)
    (arg1 : Memref sig .tc .vmem S8000x128 .f32) (harg1 : arg1.IsWhole) (arg2 : Memref sig .tc .vmem S128x1 .f32) (harg2 : arg2.IsWhole)
    (arg3 : Memref sig .tc .vmem S1 .f32) (harg3 : arg3.IsWhole) (arg4 : Memref sig .tc .vmem S8000x128 .f32) (harg4 : arg4.IsWhole)
    (x0 : Vec F S8000x128 .f32) (x1 : Vec F S128x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gate_weight_kernel i arg1 harg1 arg2 harg2 arg3 harg3 arg4 harg4) K := by
  simp only [cc1__gate_weight_kernel_eq_skeleton]; unfold cc1__gate_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input
    buffer still at its block and the result buffer at `out1_3` of the three blocks; the invariant keeps the scoped
    buffers no window stages and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunBits.lean ====
/-
  `Kernel`'s @main is: the gate kernel over the atom rows, the gate kernel over the bond rows, then nine host operations
  (two zero arrays, the two index columns, two scatter-adds of the gated rows by graph index, and the join of the two
  pooled arrays with the global features). Stated here, for any float interpretation: what every unscoped buffer holds
  at each of the three boundaries — the launch contents; then the first kernel's arrays at what its write-backs leave;
  then the second kernel's; then the host operations applied —, that every weakly fair execution of @main terminates
  with every unscoped buffer at the last of these, and, read off it, that the nine argument arrays end as launched.
-/
import proofs.«177073_j77635828843232_1_alg».proof.Proof.BodyBits

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => (s₀ m ρ).mem ((c : Dev nD), b)
/-- The same read at the TensorCore's references: what the first kernel's proof data take. -/
abbrev V0 : (c : Dev nD) → (b : Ref sig .tc) → Buf (Elt F) ((c : Thread nD τ).loc b) := fun c b => U0 m ρ c b
/-- After the first kernel: its arrays at what the pipeline leaves (inputs as entered, the result's write-backs folded),
    every other buffer as entered. -/
def U1 (c : Dev nD) : Valuation τ sig (Elt F) :=
  Pipeline.withArrays spec0 c (U0 m ρ c) fun w => (dat0 (V0 m ρ) c).arrAt w cfg0.N
theorem U1_arr (c : Dev nD) (w : Fin cfg0.W) :
    U1 m ρ c (Proc.devRef .tc (Pipeline.arrRef spec0 w)) = (dat0 (V0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev V1 : (c : Dev nD) → (b : Ref sig .tc) → Buf (Elt F) ((c : Thread nD τ).loc b) := fun c b => U1 m ρ c b
theorem hF0 (c : Dev nD) (w : Fin cfg0.W) : (dat0 (V0 m ρ) c).arrAt w cfg0.N = V1 m ρ c (Pipeline.arrRef spec0 w) :=
  (U1_arr m ρ c w).symm
theorem hrest0 (c : Dev nD) : ∀ b, b ∉ Finset.univ.image (Pipeline.arrRef spec0) → V1 m ρ c b = V0 m ρ c b :=
  fun b hb => U1_of_ne m ρ c b fun w e => hb (Finset.mem_image.mpr ⟨w, Finset.mem_univ _, e⟩)

/-- After the second kernel, likewise. -/
def U2 (c : Dev nD) : Valuation τ sig (Elt F) :=
  Pipeline.withArrays spec1 c (U1 m ρ c) fun w => (dat1 (V1 m ρ) c).arrAt w cfg1.N
theorem U2_arr (c : Dev nD) (w : Fin cfg1.W) :
    U2 m ρ c (Proc.devRef .tc (Pipeline.arrRef spec1 w)) = (dat1 (V1 m ρ) c).arrAt w cfg1.N := by
  unfold U2; exact Pipeline.withArrays_arr spec1 launch1.win.arr_inj c _ _ w
theorem U2_of_ne (c : Dev nD) (b : Ref sig .tc) (hb : ∀ w, Pipeline.arrRef spec1 w ≠ b) :
    U2 m ρ c (Proc.devRef .tc b) = U1 m ρ c (Proc.devRef .tc b) := by
  unfold U2; exact Pipeline.withArrays_of_ne spec1 c _ _ b hb
abbrev V2 : (c : Dev nD) → (b : Ref sig .tc) → Buf (Elt F) ((c : Thread nD τ).loc b) := fun c b => U2 m ρ c b
theorem hF1 (c : Dev nD) (w : Fin cfg1.W) : (dat1 (V1 m ρ) c).arrAt w cfg1.N = V2 m ρ c (Pipeline.arrRef spec1 w) :=
  (U2_arr m ρ c w).symm
theorem hrest1 (c : Dev nD) : ∀ b, b ∉ Finset.univ.image (Pipeline.arrRef spec1) → V2 m ρ c b = V1 m ρ c b :=
  fun b hb => U2_of_ne m ρ c b fun w e => hb (Finset.mem_image.mpr ⟨w, Finset.mem_univ _, e⟩)

/-- After the nine host operations. -/
abbrev U3 : Dev nD → Valuation τ sig (Elt F) := fun c => StableHlo.after hostOps2 (U2 m ρ c)

/-! ## The host operations write only their own results -/

theorem hostOps2_fresh : (hostOps2 : List (HloOp τ sig (Elt F))).Forall fun op => op.fresh = ∅ := by
  simp only [List.Forall]; repeat' constructor
/-- The references the nine host operations write. -/
abbrev hostOps2_W : List (Ref sig .tc) := [main_cst, main_v2, main_v3, main_v4, main_cst_0, main_v5, main_v6, main_v7, main_v8]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.ternary_writes, StableHlo.nary_writes,
      Finset.singleton_subset_iff, List.mem_toFinset]; exact List.mem_map_of_mem (by decide))
theorem U3_of (c : Dev nD) (r : Ref sig .tc) (h : r ∉ hostOps2_W) : U3 m ρ c (Proc.devRef .tc r) = U2 m ρ c (Proc.devRef .tc r) :=
  StableHlo.after_of_writes_sub hostOps2 _ hostOps2_writes h

/-! ## The arguments end as launched: no host operation writes one, a kernel reads it through an input window or not at all -/

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of m ρ c main_arg0 (by decide)
    _ = U1 m ρ c (Proc.devRef .tc main_arg0) := U2_of_ne m ρ c main_arg0 (by decide)
    _ = U0 m ρ c (Proc.devRef .tc main_arg0) := (U1_arr m ρ c 0).trans (((dat0 (V0 m ρ) c).arrAt_in 0 rfl _).trans (A_eq0 (V0 m ρ) c 0))
    _ = m ((c : Thread nD τ).loc main_arg0) := rfl
theorem U3_main_arg1 (c : Dev nD) : U3 m ρ c (Proc.devRef .tc main_arg1) = m ((c : Thread nD τ).loc main_arg1) :=
  calc U3 m ρ c (Proc.devRef .tc main_arg1)
    _ = U2 m ρ c (Proc.devRef .tc main_arg1) := U3_of m ρ c main_arg1 (by decide)
    _ = U1 m ρ c (Proc.devRef .tc main_arg1) := (U2_arr m ρ c 0).trans (((dat1 (V1 m ρ) c).arrAt_in 0 rfl _).trans (A_eq1 (V1 m ρ) c 0))
    _ = U0 m ρ c (Proc.devRef .tc main_arg1) := U1_of_ne m ρ c main_arg1 (by decide)
    _ = m ((c : Thread nD τ).loc main_arg1) := rfl
theorem U3_main_arg2 (c : Dev nD) : U3 m ρ c (Proc.devRef .tc main_arg2) = m ((c : Thread nD τ).loc main_arg2) :=
  calc U3 m ρ c (Proc.devRef .tc main_arg2)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of_ne m ρ c main_arg2 (by decide)
    _ = m ((c : Thread nD τ).loc main_arg2) := rfl
theorem U3_main_arg3 (c : Dev nD) : U3 m ρ c (Proc.devRef .tc main_arg3) = m ((c : Thread nD τ).loc main_arg3) :=
  calc U3 m ρ c (Proc.devRef .tc main_arg3)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := (U1_arr m ρ c 1).trans (((dat0 (V0 m ρ) c).arrAt_in 1 rfl _).trans (A_eq0 (V0 m ρ) c 1))
    _ = m ((c : Thread nD τ).loc main_arg3) := rfl
theorem U3_main_arg4 (c : Dev nD) : U3 m ρ c (Proc.devRef .tc main_arg4) = m ((c : Thread nD τ).loc main_arg4) :=
  calc U3 m ρ c (Proc.devRef .tc main_arg4)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := (U1_arr m ρ c 2).trans (((dat0 (V0 m ρ) c).arrAt_in 2 rfl _).trans (A_eq0 (V0 m ρ) c 2))
    _ = m ((c : Thread nD τ).loc main_arg4) := rfl
theorem U3_main_arg5 (c : Dev nD) : U3 m ρ c (Proc.devRef .tc main_arg5) = m ((c : Thread nD τ).loc main_arg5) :=
  calc U3 m ρ c (Proc.devRef .tc main_arg5)
    _ = U2 m ρ c (Proc.devRef .tc main_arg5) := U3_of m ρ c main_arg5 (by decide)
    _ = U1 m ρ c (Proc.devRef .tc main_arg5) := (U2_arr m ρ c 1).trans (((dat1 (V1 m ρ) c).arrAt_in 1 rfl _).trans (A_eq1 (V1 m ρ) c 1))
    _ = U0 m ρ c (Proc.devRef .tc main_arg5) := U1_of_ne m ρ c main_arg5 (by decide)
    _ = m ((c : Thread nD τ).loc main_arg5) := rfl
theorem U3_main_arg6 (c : Dev nD) : U3 m ρ c (Proc.devRef .tc main_arg6) = m ((c : Thread nD τ).loc main_arg6) :=
  calc U3 m ρ c (Proc.devRef .tc main_arg6)
    _ = U2 m ρ c (Proc.devRef .tc main_arg6) := U3_of m ρ c main_arg6 (by decide)
    _ = U1 m ρ c (Proc.devRef .tc main_arg6) := (U2_arr m ρ c 2).trans (((dat1 (V1 m ρ) c).arrAt_in 2 rfl _).trans (A_eq1 (V1 m ρ) c 2))
    _ = U0 m ρ c (Proc.devRef .tc main_arg6) := U1_of_ne m ρ c main_arg6 (by decide)
    _ = m ((c : Thread nD τ).loc main_arg6) := rfl
theorem U3_main_arg7 (c : Dev nD) : U3 m ρ c (Proc.devRef .tc main_arg7) = m ((c : Thread nD τ).loc main_arg7) :=
  calc U3 m ρ c (Proc.devRef .tc main_arg7)
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of_ne m ρ c main_arg7 (by decide)
    _ = m ((c : Thread nD τ).loc main_arg7) := rfl
theorem U3_main_arg8 (c : Dev nD) : U3 m ρ c (Proc.devRef .tc main_arg8) = m ((c : Thread nD τ).loc main_arg8) :=
  calc U3 m ρ c (Proc.devRef .tc main_arg8)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of_ne m ρ c main_arg8 (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A line of host operations as a segment, from the buffer contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (U3 m ρ c) ∗ ∃ r, prngReg c r)

/-! ## The kernels as segments -/

-- applying a library lemma stated over the pinned configuration needs unification to unfold plain definitions in a
-- metavariable's type
set_option backward.isDefEq.respectTransparency.types false in
/-- Region 0 over the thread state: entered with every unscoped buffer at `U0`, left with them at `U1`. Its arrays
    are split out of the unscoped buffers on entry and put back at their final contents on exit; the generator register
    goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (U0 m ρ c) ∗ R c)
  post c := iprop(StableHlo.held (c : Thread nD τ) (Pipeline.ucRefs τ sig) (U1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 1 over the thread state: entered with every unscoped buffer at `U1`, left with them at `U2`. Its arrays
    are split out of the unscoped buffers on entry and put back at their final contents on exit; the generator register
    goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (U2 m ρ)) ]
theorem main_run (c : Dev nD) : main (F := F) c = Pipeline.Seg.run (segs m ρ) := (main_chain c).trans (by chain_rfl)

-- the launch rule's implicit arguments are found by unifying its conclusion with this one, which takes unfolding plain
-- definitions in a metavariable's type
set_option backward.isDefEq.respectTransparency.types false in
/-- From any memory with zero counters every weakly fair execution of @main terminates, nothing faulting, and in every final
    state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun c => by
      show iprop(StableHlo.held (c : Thread nD τ) (Pipeline.ucRefs τ sig) (U3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 m ρ c) s')
      isplitl [Hh] <;> iassumption)
    (hQ := fun s h => h)

/-- The frame: every weakly fair execution of @main terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (U3_main_arg0 m ρ c),
      (h c _ (mem_uc main_arg1 (by decide))).trans (U3_main_arg1 m ρ c),
      (h c _ (mem_uc main_arg2 (by decide))).trans (U3_main_arg2 m ρ c),
      (h c _ (mem_uc main_arg3 (by decide))).trans (U3_main_arg3 m ρ c),
      (h c _ (mem_uc main_arg4 (by decide))).trans (U3_main_arg4 m ρ c),
      (h c _ (mem_uc main_arg5 (by decide))).trans (U3_main_arg5 m ρ c),
      (h c _ (mem_uc main_arg6 (by decide))).trans (U3_main_arg6 m ρ c),
      (h c _ (mem_uc main_arg7 (by decide))).trans (U3_main_arg7 m ρ c),
      (h c _ (mem_uc main_arg8 (by decide))).trans (U3_main_arg8 m ρ c)⟩) (run_all m ρ)

end Cert.Kernel.Hand

end
-- ==== Proof.BodyIdeal.lean ====
/-
  The two gate kernels of `KernelIdeal` run one grid point at a time. Each grid point takes a block of rows of a feature array
  together with the whole weight column and the whole bias, and stores, into the matching block of rows of the result,
  every row multiplied by the logistic of (that row · weight column + bias). Stated here, for any float interpretation:
  what the result block holds after the body as a function of the three loaded blocks, that the body run on staging
  buffers holding those blocks ends there, and from it the per-point obligation the pipeline's launch rule asks for.
-/
import proofs.«177073_j77635828843232_1_alg».proof.Proof.Gen.KernelIdeal.Launch
import proofs.«177073_j77635828843232_1_alg».proof.Proof.Gen.KernelIdeal.Skeleton
import proofs.«177073_j77635828843232_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when a region is entered: the parameter both regions' statements take
variable (V : (c : Dev nD) → (b : Ref sig .tc) → Buf (Elt F) ((c : Thread nD τ).loc b))

/-! # Region 0: the gate kernel on atom rows, entered at buffer contents `V`

Window 0 is a block of rows of the feature array, window 1 the whole weight column, window 2 the whole bias,
window 3 the matching block of rows of the result. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block at every point, whether the point fetches it or its
    block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangle of the row block, of the weight column and of the bias: what the body loads and stores through. -/
abbrev rB0 : Rect S4000x256 := Rect.unit (s := S4000x256) ![0, 0] S4000x256.size inb_S4000x256_S4000x256_0_0
abbrev rW0 : Rect S256x1 := Rect.unit (s := S256x1) ![0, 0] S256x1.size inb_S256x1_S256x1_0_0
abbrev rb0 : Rect S1 := Rect.unit (s := S1) ![0] S1.size inb_S1_S1_0

/-- What the body leaves in the result window's buffer: its one store, of the gated rows computed from the three loads. -/
def out0_3 (x0 : Vec F S4000x256 .f32) (x1 : Vec F S256x1 .f32) (x2 : Vec F S1 .f32) : Vec F S4000x256 .f32 :=
  View.canon [⟨rB0, k0_pay1 (View.ld x0 rB0) (View.ld x1 rW0) (View.ld x2 rb0)⟩]

/-- The one store is of the whole buffer, so it covers it. -/
theorem cover0_3 (p0 : Vec F S4000x256 .f32) (y : S4000x256.Idx) :
    ∃ pc ∈ ([⟨rB0, p0⟩] : List (View.Piece (Elt F) S4000x256 .f32)), y ∈ pc.1.set :=
  View.cover_of_tiled [⟨rB0, p0⟩] S4000x256.size (by rfl) y

set_option maxHeartbeats 1000000 in
/-- The body on whole staging buffers, the three inputs at known contents and the result buffer at anything, runs to its
    continuation with the inputs as they were and the result buffer at `out0_3` of them. -/
theorem sound_kernel0 (c : Dev nD) (E : Set ℕ) (i : grid0.Coords)
    (arg1 : Memref sig .tc .vmem S4000x256 .f32) (harg1 : arg1.IsWhole) (arg2 : Memref sig .tc .vmem S256x1 .f32) (harg2 : arg2.IsWhole)
    (arg3 : Memref sig .tc .vmem S1 .f32) (harg3 : arg3.IsWhole) (arg4 : Memref sig .tc .vmem S4000x256 .f32) (harg4 : arg4.IsWhole)
    (x0 : Vec F S4000x256 .f32) (x1 : Vec F S256x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__gate_weight_kernel i arg1 harg1 arg2 harg2 arg3 harg3 arg4 harg4) K := by
  simp only [cc0__gate_weight_kernel_eq_skeleton]; unfold cc0__gate_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data on core `c`: the arrays as the region finds them; after the body at point `t` each input
    buffer still at its block and the result buffer at `out0_3` of the three blocks; the invariant keeps the scoped
    buffers no window stages and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the gate kernel on bond rows, entered at buffer contents `V`

Window 0 is a block of rows of the feature array, window 1 the whole weight column, window 2 the whole bias,
window 3 the matching block of rows of the result. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block at every point, whether the point fetches it or its
    block index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangle of the row block, of the weight column and of the bias: what the body loads and stores through. -/
abbrev rB1 : Rect S8000x128 := Rect.unit (s := S8000x128) ![0, 0] S8000x128.size inb_S8000x128_S8000x128_0_0
abbrev rW1 : Rect S128x1 := Rect.unit (s := S128x1) ![0, 0] S128x1.size inb_S128x1_S128x1_0_0
abbrev rb1 : Rect S1 := Rect.unit (s := S1) ![0] S1.size inb_S1_S1_0

/-- What the body leaves in the result window's buffer: its one store, of the gated rows computed from the three loads. -/
def out1_3 (x0 : Vec F S8000x128 .f32) (x1 : Vec F S128x1 .f32) (x2 : Vec F S1 .f32) : Vec F S8000x128 .f32 :=
  View.canon [⟨rB1, k1_pay1 (View.ld x0 rB1) (View.ld x1 rW1) (View.ld x2 rb1)⟩]

/-- The one store is of the whole buffer, so it covers it. -/
theorem cover1_3 (p0 : Vec F S8000x128 .f32) (y : S8000x128.Idx) :
    ∃ pc ∈ ([⟨rB1, p0⟩] : List (View.Piece (Elt F) S8000x128 .f32)), y ∈ pc.1.set :=
  View.cover_of_tiled [⟨rB1, p0⟩] S8000x128.size (by rfl) y

set_option maxHeartbeats 1000000 in
/-- The body on whole staging buffers, the three inputs at known contents and the result buffer at anything, runs to its
    continuation with the inputs as they were and the result buffer at `out1_3` of them. -/
theorem sound_kernel1 (c : Dev nD) (E : Set ℕ) (i : grid1.Coords)
    (arg1 : Memref sig .tc .vmem S8000x128 .f32) (harg1 : arg1.IsWhole) (arg2 : Memref sig .tc .vmem S128x1 .f32) (harg2 : arg2.IsWhole)
    (arg3 : Memref sig .tc .vmem S1 .f32) (harg3 : arg3.IsWhole) (arg4 : Memref sig .tc .vmem S8000x128 .f32) (harg4 : arg4.IsWhole)
    (x0 : Vec F S8000x128 .f32) (x1 : Vec F S128x1 .f32) (x2 : Vec F S1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gate_weight_kernel i arg1 harg1 arg2 harg2 arg3 harg3 arg4 harg4) K := by
  simp only [cc1__gate_weight_kernel_eq_skeleton]; unfold cc1__gate_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the region finds them; after the body at point `t` each input
    buffer still at its block and the result buffer at `out1_3` of the three blocks; the invariant keeps the scoped
    buffers no window stages and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunIdeal.lean ====
/-
  `KernelIdeal`'s @main is: the gate kernel over the atom rows, the gate kernel over the bond rows, then nine host operations
  (two zero arrays, the two index columns, two scatter-adds of the gated rows by graph index, and the join of the two
  pooled arrays with the global features). Stated here, for any float interpretation: what every unscoped buffer holds
  at each of the three boundaries — the launch contents; then the first kernel's arrays at what its write-backs leave;
  then the second kernel's; then the host operations applied —, that every weakly fair execution of @main terminates
  with every unscoped buffer at the last of these, and, read off it, that the nine argument arrays end as launched.
-/
import proofs.«177073_j77635828843232_1_alg».proof.Proof.BodyIdeal

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev U0 : Dev nD → Valuation τ sig (Elt F) := fun c b => (s₀ m ρ).mem ((c : Dev nD), b)
/-- The same read at the TensorCore's references: what the first kernel's proof data take. -/
abbrev V0 : (c : Dev nD) → (b : Ref sig .tc) → Buf (Elt F) ((c : Thread nD τ).loc b) := fun c b => U0 m ρ c b
/-- After the first kernel: its arrays at what the pipeline leaves (inputs as entered, the result's write-backs folded),
    every other buffer as entered. -/
def U1 (c : Dev nD) : Valuation τ sig (Elt F) :=
  Pipeline.withArrays spec0 c (U0 m ρ c) fun w => (dat0 (V0 m ρ) c).arrAt w cfg0.N
theorem U1_arr (c : Dev nD) (w : Fin cfg0.W) :
    U1 m ρ c (Proc.devRef .tc (Pipeline.arrRef spec0 w)) = (dat0 (V0 m ρ) c).arrAt w cfg0.N := by
  unfold U1; exact Pipeline.withArrays_arr spec0 launch0.win.arr_inj c _ _ w
theorem U1_of_ne (c : Dev nD) (b : Ref sig .tc) (hb : ∀ w, Pipeline.arrRef spec0 w ≠ b) :
    U1 m ρ c (Proc.devRef .tc b) = U0 m ρ c (Proc.devRef .tc b) := by
  unfold U1; exact Pipeline.withArrays_of_ne spec0 c _ _ b hb
abbrev V1 : (c : Dev nD) → (b : Ref sig .tc) → Buf (Elt F) ((c : Thread nD τ).loc b) := fun c b => U1 m ρ c b
theorem hF0 (c : Dev nD) (w : Fin cfg0.W) : (dat0 (V0 m ρ) c).arrAt w cfg0.N = V1 m ρ c (Pipeline.arrRef spec0 w) :=
  (U1_arr m ρ c w).symm
theorem hrest0 (c : Dev nD) : ∀ b, b ∉ Finset.univ.image (Pipeline.arrRef spec0) → V1 m ρ c b = V0 m ρ c b :=
  fun b hb => U1_of_ne m ρ c b fun w e => hb (Finset.mem_image.mpr ⟨w, Finset.mem_univ _, e⟩)

/-- After the second kernel, likewise. -/
def U2 (c : Dev nD) : Valuation τ sig (Elt F) :=
  Pipeline.withArrays spec1 c (U1 m ρ c) fun w => (dat1 (V1 m ρ) c).arrAt w cfg1.N
theorem U2_arr (c : Dev nD) (w : Fin cfg1.W) :
    U2 m ρ c (Proc.devRef .tc (Pipeline.arrRef spec1 w)) = (dat1 (V1 m ρ) c).arrAt w cfg1.N := by
  unfold U2; exact Pipeline.withArrays_arr spec1 launch1.win.arr_inj c _ _ w
theorem U2_of_ne (c : Dev nD) (b : Ref sig .tc) (hb : ∀ w, Pipeline.arrRef spec1 w ≠ b) :
    U2 m ρ c (Proc.devRef .tc b) = U1 m ρ c (Proc.devRef .tc b) := by
  unfold U2; exact Pipeline.withArrays_of_ne spec1 c _ _ b hb
abbrev V2 : (c : Dev nD) → (b : Ref sig .tc) → Buf (Elt F) ((c : Thread nD τ).loc b) := fun c b => U2 m ρ c b
theorem hF1 (c : Dev nD) (w : Fin cfg1.W) : (dat1 (V1 m ρ) c).arrAt w cfg1.N = V2 m ρ c (Pipeline.arrRef spec1 w) :=
  (U2_arr m ρ c w).symm
theorem hrest1 (c : Dev nD) : ∀ b, b ∉ Finset.univ.image (Pipeline.arrRef spec1) → V2 m ρ c b = V1 m ρ c b :=
  fun b hb => U2_of_ne m ρ c b fun w e => hb (Finset.mem_image.mpr ⟨w, Finset.mem_univ _, e⟩)

/-- After the nine host operations. -/
abbrev U3 : Dev nD → Valuation τ sig (Elt F) := fun c => StableHlo.after hostOps2 (U2 m ρ c)

/-! ## The host operations write only their own results -/

theorem hostOps2_fresh : (hostOps2 : List (HloOp τ sig (Elt F))).Forall fun op => op.fresh = ∅ := by
  simp only [List.Forall]; repeat' constructor
/-- The references the nine host operations write. -/
abbrev hostOps2_W : List (Ref sig .tc) := [main_cst, main_v2, main_v3, main_v4, main_cst_0, main_v5, main_v6, main_v7, main_v8]
theorem hostOps2_writes : (hostOps2 : List (HloOp τ sig (Elt F))).Forall fun op => op.writes ⊆ (hostOps2_W.map (Proc.devRef (τ := τ) .tc)).toFinset := by
  simp only [List.Forall]
  refine ⟨?_, ?_, ?_, ?_, ?_, ?_, ?_, ?_, ?_⟩ <;>
    (simp only [StableHlo.nullary_writes, StableHlo.unary_writes, StableHlo.ternary_writes, StableHlo.nary_writes,
      Finset.singleton_subset_iff, List.mem_toFinset]; exact List.mem_map_of_mem (by decide))
theorem U3_of (c : Dev nD) (r : Ref sig .tc) (h : r ∉ hostOps2_W) : U3 m ρ c (Proc.devRef .tc r) = U2 m ρ c (Proc.devRef .tc r) :=
  StableHlo.after_of_writes_sub hostOps2 _ hostOps2_writes h

/-! ## The arguments end as launched: no host operation writes one, a kernel reads it through an input window or not at all -/

theorem U3_main_arg0 (c : Dev nD) : U3 m ρ c (Proc.devRef .tc main_arg0) = m ((c : Thread nD τ).loc main_arg0) :=
  calc U3 m ρ c (Proc.devRef .tc main_arg0)
    _ = U2 m ρ c (Proc.devRef .tc main_arg0) := U3_of m ρ c main_arg0 (by decide)
    _ = U1 m ρ c (Proc.devRef .tc main_arg0) := U2_of_ne m ρ c main_arg0 (by decide)
    _ = U0 m ρ c (Proc.devRef .tc main_arg0) := (U1_arr m ρ c 0).trans (((dat0 (V0 m ρ) c).arrAt_in 0 rfl _).trans (A_eq0 (V0 m ρ) c 0))
    _ = m ((c : Thread nD τ).loc main_arg0) := rfl
theorem U3_main_arg1 (c : Dev nD) : U3 m ρ c (Proc.devRef .tc main_arg1) = m ((c : Thread nD τ).loc main_arg1) :=
  calc U3 m ρ c (Proc.devRef .tc main_arg1)
    _ = U2 m ρ c (Proc.devRef .tc main_arg1) := U3_of m ρ c main_arg1 (by decide)
    _ = U1 m ρ c (Proc.devRef .tc main_arg1) := (U2_arr m ρ c 0).trans (((dat1 (V1 m ρ) c).arrAt_in 0 rfl _).trans (A_eq1 (V1 m ρ) c 0))
    _ = U0 m ρ c (Proc.devRef .tc main_arg1) := U1_of_ne m ρ c main_arg1 (by decide)
    _ = m ((c : Thread nD τ).loc main_arg1) := rfl
theorem U3_main_arg2 (c : Dev nD) : U3 m ρ c (Proc.devRef .tc main_arg2) = m ((c : Thread nD τ).loc main_arg2) :=
  calc U3 m ρ c (Proc.devRef .tc main_arg2)
    _ = U2 m ρ c (Proc.devRef .tc main_arg2) := U3_of m ρ c main_arg2 (by decide)
    _ = U1 m ρ c (Proc.devRef .tc main_arg2) := U2_of_ne m ρ c main_arg2 (by decide)
    _ = U0 m ρ c (Proc.devRef .tc main_arg2) := U1_of_ne m ρ c main_arg2 (by decide)
    _ = m ((c : Thread nD τ).loc main_arg2) := rfl
theorem U3_main_arg3 (c : Dev nD) : U3 m ρ c (Proc.devRef .tc main_arg3) = m ((c : Thread nD τ).loc main_arg3) :=
  calc U3 m ρ c (Proc.devRef .tc main_arg3)
    _ = U2 m ρ c (Proc.devRef .tc main_arg3) := U3_of m ρ c main_arg3 (by decide)
    _ = U1 m ρ c (Proc.devRef .tc main_arg3) := U2_of_ne m ρ c main_arg3 (by decide)
    _ = U0 m ρ c (Proc.devRef .tc main_arg3) := (U1_arr m ρ c 1).trans (((dat0 (V0 m ρ) c).arrAt_in 1 rfl _).trans (A_eq0 (V0 m ρ) c 1))
    _ = m ((c : Thread nD τ).loc main_arg3) := rfl
theorem U3_main_arg4 (c : Dev nD) : U3 m ρ c (Proc.devRef .tc main_arg4) = m ((c : Thread nD τ).loc main_arg4) :=
  calc U3 m ρ c (Proc.devRef .tc main_arg4)
    _ = U2 m ρ c (Proc.devRef .tc main_arg4) := U3_of m ρ c main_arg4 (by decide)
    _ = U1 m ρ c (Proc.devRef .tc main_arg4) := U2_of_ne m ρ c main_arg4 (by decide)
    _ = U0 m ρ c (Proc.devRef .tc main_arg4) := (U1_arr m ρ c 2).trans (((dat0 (V0 m ρ) c).arrAt_in 2 rfl _).trans (A_eq0 (V0 m ρ) c 2))
    _ = m ((c : Thread nD τ).loc main_arg4) := rfl
theorem U3_main_arg5 (c : Dev nD) : U3 m ρ c (Proc.devRef .tc main_arg5) = m ((c : Thread nD τ).loc main_arg5) :=
  calc U3 m ρ c (Proc.devRef .tc main_arg5)
    _ = U2 m ρ c (Proc.devRef .tc main_arg5) := U3_of m ρ c main_arg5 (by decide)
    _ = U1 m ρ c (Proc.devRef .tc main_arg5) := (U2_arr m ρ c 1).trans (((dat1 (V1 m ρ) c).arrAt_in 1 rfl _).trans (A_eq1 (V1 m ρ) c 1))
    _ = U0 m ρ c (Proc.devRef .tc main_arg5) := U1_of_ne m ρ c main_arg5 (by decide)
    _ = m ((c : Thread nD τ).loc main_arg5) := rfl
theorem U3_main_arg6 (c : Dev nD) : U3 m ρ c (Proc.devRef .tc main_arg6) = m ((c : Thread nD τ).loc main_arg6) :=
  calc U3 m ρ c (Proc.devRef .tc main_arg6)
    _ = U2 m ρ c (Proc.devRef .tc main_arg6) := U3_of m ρ c main_arg6 (by decide)
    _ = U1 m ρ c (Proc.devRef .tc main_arg6) := (U2_arr m ρ c 2).trans (((dat1 (V1 m ρ) c).arrAt_in 2 rfl _).trans (A_eq1 (V1 m ρ) c 2))
    _ = U0 m ρ c (Proc.devRef .tc main_arg6) := U1_of_ne m ρ c main_arg6 (by decide)
    _ = m ((c : Thread nD τ).loc main_arg6) := rfl
theorem U3_main_arg7 (c : Dev nD) : U3 m ρ c (Proc.devRef .tc main_arg7) = m ((c : Thread nD τ).loc main_arg7) :=
  calc U3 m ρ c (Proc.devRef .tc main_arg7)
    _ = U2 m ρ c (Proc.devRef .tc main_arg7) := U3_of m ρ c main_arg7 (by decide)
    _ = U1 m ρ c (Proc.devRef .tc main_arg7) := U2_of_ne m ρ c main_arg7 (by decide)
    _ = U0 m ρ c (Proc.devRef .tc main_arg7) := U1_of_ne m ρ c main_arg7 (by decide)
    _ = m ((c : Thread nD τ).loc main_arg7) := rfl
theorem U3_main_arg8 (c : Dev nD) : U3 m ρ c (Proc.devRef .tc main_arg8) = m ((c : Thread nD τ).loc main_arg8) :=
  calc U3 m ρ c (Proc.devRef .tc main_arg8)
    _ = U2 m ρ c (Proc.devRef .tc main_arg8) := U3_of m ρ c main_arg8 (by decide)
    _ = U1 m ρ c (Proc.devRef .tc main_arg8) := U2_of_ne m ρ c main_arg8 (by decide)
    _ = U0 m ρ c (Proc.devRef .tc main_arg8) := U1_of_ne m ρ c main_arg8 (by decide)
    _ = m ((c : Thread nD τ).loc main_arg8) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A line of host operations as a segment, from the buffer contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (U3 m ρ c) ∗ ∃ r, prngReg c r)

/-! ## The kernels as segments -/

-- applying a library lemma stated over the pinned configuration needs unification to unfold plain definitions in a
-- metavariable's type
set_option backward.isDefEq.respectTransparency.types false in
/-- Region 0 over the thread state: entered with every unscoped buffer at `U0`, left with them at `U1`. Its arrays
    are split out of the unscoped buffers on entry and put back at their final contents on exit; the generator register
    goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (U0 m ρ c) ∗ R c)
  post c := iprop(StableHlo.held (c : Thread nD τ) (Pipeline.ucRefs τ sig) (U1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration needs unification to unfold plain definitions in a
-- metavariable's type
set_option backward.isDefEq.respectTransparency.types false in
/-- Region 1 over the thread state: entered with every unscoped buffer at `U1`, left with them at `U2`. Its arrays
    are split out of the unscoped buffers on entry and put back at their final contents on exit; the generator register
    goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (U1 m ρ c) ∗ R c)
  post c := iprop(StableHlo.held (c : Thread nD τ) (Pipeline.ucRefs τ sig) (U2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (U2 m ρ)) ]
theorem main_run (c : Dev nD) : main (F := F) c = Pipeline.Seg.run (segs m ρ) := (main_chain c).trans (by chain_rfl)

-- the launch rule's implicit arguments are found by unifying its conclusion with this one, which takes unfolding plain
-- definitions in a metavariable's type
set_option backward.isDefEq.respectTransparency.types false in
/-- From any memory with zero counters every weakly fair execution of @main terminates, nothing faulting, and in every final
    state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ R c)) (Tₙ := Tₙ m ρ)
    (hch := ⟨fun _ => .rfl, fun _ => .rfl, fun _ => .rfl, fun c => by
      show iprop(StableHlo.held (c : Thread nD τ) (Pipeline.ucRefs τ sig) (U3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U3 m ρ c b)
    (hfin := fun c s' => by
      iintro ⟨⟨Hh, -⟩, HSI⟩
      unfold StableHlo.held
      imodintro
      iapply (pointsTo_read_all (Pipeline.ucRefs τ sig) (fun b => (((c : Thread nD τ)).1, b)) (U3 m ρ c) s')
      isplitl [Hh] <;> iassumption)
    (hQ := fun s h => h)

/-- The frame: every weakly fair execution of @main terminates, nothing faulting, with the nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (U3_main_arg0 m ρ c),
      (h c _ (mem_uc main_arg1 (by decide))).trans (U3_main_arg1 m ρ c),
      (h c _ (mem_uc main_arg2 (by decide))).trans (U3_main_arg2 m ρ c),
      (h c _ (mem_uc main_arg3 (by decide))).trans (U3_main_arg3 m ρ c),
      (h c _ (mem_uc main_arg4 (by decide))).trans (U3_main_arg4 m ρ c),
      (h c _ (mem_uc main_arg5 (by decide))).trans (U3_main_arg5 m ρ c),
      (h c _ (mem_uc main_arg6 (by decide))).trans (U3_main_arg6 m ρ c),
      (h c _ (mem_uc main_arg7 (by decide))).trans (U3_main_arg7 m ρ c),
      (h c _ (mem_uc main_arg8 (by decide))).trans (U3_main_arg8 m ρ c)⟩) (run_all m ρ)

end Cert.KernelIdeal.Hand

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«177073_j77635828843232_1_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.LibGateRows.lean ====
/-
  GENERAL LEMMAS. Rows of a feature array gated by the logistic of a linear score.

  For an `M × K` array `x`, a `K × 1` weight column `w` and a one-entry bias `b`, the gated array has at `(p, q)`
  the entry `x (p, q) · σ (Σₖ x (p, k) · w (k, 0) + b)`, where `σ z = 1 / (1 + e^(−z))` on the extended reals. Entry
  `(p, q)` depends on row `p` of `x` only, so a kernel that works through `x` a block of rows at a time computes it
  block by block. Two spellings are shown equal to it at the exact values, entry by entry:
  * a kernel body's, on a tile of rows: round both operands to a narrower format (the identity here), multiply into a
    zero accumulator, add the bias cast to `[1, 1]` and broadcast down the rows, take the logistic, broadcast the
    column across the row, multiply by the tile;
  * a host program's, on the whole array: `dot_general`, the bias broadcast to `[1, 1]` and then down the rows,
    negate, exponential, one plus, one divided by, broadcast across the row, multiply.
  The logistic is by definition that quotient, the product into zero and the `dot_general` are the same sum, and no law
  of the extended reals beyond these readings is used: nothing here asks for finiteness.
-/
import Idealize.ShloMosaic.PureOps.Ideal
import Idealize.ShloMosaic.PureOps.Ideal.Laws
import Idealize.ShloMosaic.PureOps.Dims
import Idealize.ShloMosaic.Lib.ValueIdx
import Idealize.ShloMosaic.Lib.Pipeline.Value
import Idealize.ShloMosaic.Lib.IdealHost
import proofs.«177073_j77635828843232_1_alg».proof.Proof.LibBlockMatmul

noncomputable section

namespace Cert.GateRows

open Idealize.ShloMosaic Idealize.ShloMosaic.ValueIdx

/-- The linear score of row `p`: the row against the weight column, plus the bias. -/
def score {M K : Nat} (x : (⟨2, ![M, K]⟩ : Shape).Idx → EReal) (w : (⟨2, ![K, 1]⟩ : Shape).Idx → EReal)
    (b : (⟨1, ![1]⟩ : Shape).Idx → EReal) (p : Fin M) : EReal :=
  (∑ k : Fin K, x (ix2 p k) * w (ix2 k (0 : Fin 1))) + b (ix1 (0 : Fin 1))

/-- The gated array: every entry times the logistic of its row's score. -/
def gated {M K : Nat} (x : (⟨2, ![M, K]⟩ : Shape).Idx → EReal) (w : (⟨2, ![K, 1]⟩ : Shape).Idx → EReal)
    (b : (⟨1, ![1]⟩ : Shape).Idx → EReal) : (⟨2, ![M, K]⟩ : Shape).Idx → EReal :=
  fun i => x i * Ideal.logistic (score x w b ⟨(i 0).val, idx2_lt0 i⟩)

theorem gated_ix2 {M K : Nat} (x : (⟨2, ![M, K]⟩ : Shape).Idx → EReal) (w : (⟨2, ![K, 1]⟩ : Shape).Idx → EReal)
    (b : (⟨1, ![1]⟩ : Shape).Idx → EReal) (p : Fin M) (q : Fin K) :
    gated x w b (ix2 p q) = x (ix2 p q) * Ideal.logistic (score x w b p) := rfl

/-- An entry of the gated array depends on one row of `x`: if row `p` of a tile `x0` is row `r` of `x`, the tile's gated
    entry `(p, q)` is the array's gated entry `(r, q)`. -/
theorem gated_row {T M K : Nat} (x0 : (⟨2, ![T, K]⟩ : Shape).Idx → EReal) (x : (⟨2, ![M, K]⟩ : Shape).Idx → EReal)
    (w : (⟨2, ![K, 1]⟩ : Shape).Idx → EReal) (b : (⟨1, ![1]⟩ : Shape).Idx → EReal) (p : Fin T) (r : Fin M)
    (hrow : ∀ k : Fin K, x0 (ix2 p k) = x (ix2 r k)) (q : Fin K) :
    gated x0 w b (ix2 p q) = gated x w b (ix2 r q) := by
  rw [gated_ix2, gated_ix2, hrow q]
  unfold score
  rw [Finset.sum_congr rfl fun k _ => by rw [hrow k]]

/-- A one-entry array read anywhere is read at its one index. -/
theorem one_entry {α : Type} (b : (⟨1, ![1]⟩ : Shape).Idx → α) (k : (⟨1, ![1]⟩ : Shape).Idx) : b k = b (ix1 (0 : Fin 1)) := by
  have hk : k = ix1 (0 : Fin 1) := by
    funext a
    match a with
    | ⟨0, _⟩ =>
      have h : ((k 0 : Fin 1) : Nat) < 1 := (k 0 : Fin 1).isLt
      exact Fin.ext (show ((k 0 : Fin 1) : Nat) = 0 by omega)
  rw [hk]

/-- A column broadcast across the row (`vector.broadcast`), read at `(p, q)`, is the column at `(p, 0)`. -/
theorem column_across {α : Type} {T K : Nat} (v : (⟨2, ![T, 1]⟩ : Shape).Idx → α)
    (h : (⟨2, ![T, 1]⟩ : Shape).Broadcasts ⟨2, ![T, K]⟩) (p : Fin T) (q : Fin K) :
    broadcastTo ⟨2, ![T, K]⟩ v h (ix2 p q) = v (ix2 p (0 : Fin 1)) :=
  broadcastTo_apply v h (ix2 p q) (ix2 p (0 : Fin 1)) (fun a => match a with
    | ⟨0, _⟩ => by
        show p.val = if T = 1 then 0 else p.val
        split_ifs with h1
        · have := p.isLt; omega
        · rfl
    | ⟨1, _⟩ => by show 0 = if (1 : Nat) = 1 then 0 else q.val; rw [if_pos rfl])

/-- The same for the host's `broadcast_in_dim` along dimensions `(0, 1)`. -/
theorem column_across_host {α : Type} {M K : Nat} (v : (⟨2, ![M, 1]⟩ : Shape).Idx → α)
    (h : (⟨2, ![M, 1]⟩ : Shape).BroadcastsInDim ⟨2, ![M, K]⟩ ![0, 1]) (p : Fin M) (q : Fin K) :
    broadcastInDim ⟨2, ![M, K]⟩ ![0, 1] h v (ix2 p q) = v (ix2 p (0 : Fin 1)) :=
  broadcastInDim_apply ![0, 1] h v (ix2 p q) (ix2 p (0 : Fin 1)) (fun a => match a with
    | ⟨0, _⟩ => by
        show p.val = if M = 1 then 0 else p.val
        split_ifs with h1
        · have := p.isLt; omega
        · rfl
    | ⟨1, _⟩ => by show 0 = if (1 : Nat) = 1 then 0 else q.val; rw [if_pos rfl])

/-- THE KERNEL BODY'S SPELLING on a tile of `M` rows is the tile's gated array. -/
theorem body_eq_gated {M K : Nat} {ψ : FTy}
    (d : DotDims (⟨2, ![M, K]⟩ : Shape) (⟨2, ![K, 1]⟩ : Shape) (⟨2, ![M, 1]⟩ : Shape))
    (hrank : d.contr.rank = 1) (hsize : d.contr.size ⟨0, by omega⟩ = K)
    (hl0 : ∀ (j : (⟨2, ![M, 1]⟩ : Shape).Idx) (k : d.contr.Idx), (d.lhsIdx j k 0).val = (j 0).val)
    (hl1 : ∀ (j : (⟨2, ![M, 1]⟩ : Shape).Idx) (k : d.contr.Idx), (d.lhsIdx j k 1).val = (k ⟨0, by omega⟩).val)
    (hr0 : ∀ (j : (⟨2, ![M, 1]⟩ : Shape).Idx) (k : d.contr.Idx), (d.rhsIdx j k 0).val = (k ⟨0, by omega⟩).val)
    (hr1 : ∀ (j : (⟨2, ![M, 1]⟩ : Shape).Idx) (k : d.contr.Idx), (d.rhsIdx j k 1).val = (j 1).val)
    (hlt : ψ.bits < FTy.bits .f32)
    (hc : (⟨1, ![1]⟩ : Shape).ShapeCasts ⟨2, ![1, 1]⟩)
    (hb1 : (⟨2, ![1, 1]⟩ : Shape).Broadcasts ⟨2, ![M, 1]⟩)
    (hb2 : (⟨2, ![M, 1]⟩ : Shape).Broadcasts ⟨2, ![M, K]⟩)
    (x0 : FVec Ideal ⟨2, ![M, K]⟩ .f32) (x1 : FVec Ideal ⟨2, ![K, 1]⟩ .f32) (x2 : FVec Ideal ⟨1, ![1]⟩ .f32) :
    mulf x0 (broadcastTo ⟨2, ![M, K]⟩
        (logistic (addf (matmul d none (truncf ψ x0 hlt) (truncf ψ x1 hlt) (constant (F := Ideal) ⟨2, ![M, 1]⟩ .f32 0x00000000#32))
          (broadcastTo ⟨2, ![M, 1]⟩ (shapeCast ⟨2, ![1, 1]⟩ x2 hc) hb1))) hb2)
      = gated x0 x1 x2 := by
  funext y
  obtain ⟨p, q, rfl⟩ : ∃ (p : Fin M) (q : Fin K), y = ix2 p q := ⟨⟨(y 0).val, idx2_lt0 y⟩, ⟨(y 1).val, idx2_lt1 y⟩, eq_ix2 y⟩
  rw [gated_ix2]
  show FloatOps.mulf (x0 (ix2 p q)) (broadcastTo (s := ⟨2, ![M, 1]⟩) ⟨2, ![M, K]⟩ _ hb2 (ix2 p q)) = _
  rw [column_across _ hb2 p q]
  show FloatOps.mulf (x0 (ix2 p q)) (FloatOps.logistic (FloatOps.addf
      (FloatOps.matmul d none (truncf ψ x0 hlt) (truncf ψ x1 hlt) (constant (F := Ideal) ⟨2, ![M, 1]⟩ .f32 0x00000000#32) (ix2 p (0 : Fin 1)))
      (broadcastTo ⟨2, ![M, 1]⟩ (shapeCast ⟨2, ![1, 1]⟩ x2 hc) hb1 (ix2 p (0 : Fin 1))))) = _
  rw [Cert.BlockMatmul.matmul_zero_fin d hrank hsize hl0 hl1 hr0 hr1 none (truncf ψ x0 hlt) (truncf ψ x1 hlt) (ix2 p (0 : Fin 1)),
    show broadcastTo ⟨2, ![M, 1]⟩ (shapeCast ⟨2, ![1, 1]⟩ x2 hc) hb1 (ix2 p (0 : Fin 1)) = x2 (ix1 (0 : Fin 1)) from one_entry x2 _]
  rfl

/-- THE HOST'S SPELLING on the whole `M × K` array is its gated array. -/
theorem host_eq_gated {M K : Nat}
    (d : DotDims (⟨2, ![M, K]⟩ : Shape) (⟨2, ![K, 1]⟩ : Shape) (⟨2, ![M, 1]⟩ : Shape))
    (hrank : d.contr.rank = 1) (hsize : d.contr.size ⟨0, by omega⟩ = K)
    (hl0 : ∀ (j : (⟨2, ![M, 1]⟩ : Shape).Idx) (k : d.contr.Idx), (d.lhsIdx j k 0).val = (j 0).val)
    (hl1 : ∀ (j : (⟨2, ![M, 1]⟩ : Shape).Idx) (k : d.contr.Idx), (d.lhsIdx j k 1).val = (k ⟨0, by omega⟩).val)
    (hr0 : ∀ (j : (⟨2, ![M, 1]⟩ : Shape).Idx) (k : d.contr.Idx), (d.rhsIdx j k 0).val = (k ⟨0, by omega⟩).val)
    (hr1 : ∀ (j : (⟨2, ![M, 1]⟩ : Shape).Idx) (k : d.contr.Idx), (d.rhsIdx j k 1).val = (j 1).val)
    (hb11 : (⟨1, ![1]⟩ : Shape).BroadcastsInDim ⟨2, ![1, 1]⟩ ![1])
    (hbM1 : (⟨2, ![1, 1]⟩ : Shape).BroadcastsInDim ⟨2, ![M, 1]⟩ ![0, 1])
    (hs : (⟨0, ![]⟩ : Shape).BroadcastsInDim ⟨2, ![M, 1]⟩ ![])
    (hbMK : (⟨2, ![M, 1]⟩ : Shape).BroadcastsInDim ⟨2, ![M, K]⟩ ![0, 1])
    (x0 : FVec Ideal ⟨2, ![M, K]⟩ .f32) (x3 : FVec Ideal ⟨2, ![K, 1]⟩ .f32) (x4 : FVec Ideal ⟨1, ![1]⟩ .f32) :
    mulf x0 (broadcastInDim ⟨2, ![M, K]⟩ ![0, 1] hbMK
        (Host.divf (broadcastInDim ⟨2, ![M, 1]⟩ ![] hs (constant (F := Ideal) ⟨0, ![]⟩ .f32 0x3F800000#32))
          (addf (broadcastInDim ⟨2, ![M, 1]⟩ ![] hs (constant (F := Ideal) ⟨0, ![]⟩ .f32 0x3F800000#32))
            (Host.exp (Host.negf (addf (Host.dotGeneral d none x0 x3)
              (broadcastInDim ⟨2, ![M, 1]⟩ ![0, 1] hbM1 (broadcastInDim ⟨2, ![1, 1]⟩ ![1] hb11 x4))))))))
      = gated x0 x3 x4 := by
  funext y
  obtain ⟨p, q, rfl⟩ : ∃ (p : Fin M) (q : Fin K), y = ix2 p q := ⟨⟨(y 0).val, idx2_lt0 y⟩, ⟨(y 1).val, idx2_lt1 y⟩, eq_ix2 y⟩
  rw [gated_ix2]
  show FloatOps.mulf (x0 (ix2 p q)) (broadcastInDim (s := ⟨2, ![M, 1]⟩) ⟨2, ![M, K]⟩ ![0, 1] hbMK _ (ix2 p q)) = _
  rw [column_across_host _ hbMK p q]
  show FloatOps.mulf (x0 (ix2 p q)) (FloatOps.hostDivf (FloatOps.ofBits .f32 0x3F800000#32) (FloatOps.addf (FloatOps.ofBits .f32 0x3F800000#32)
      (FloatOps.hostUnary .exp (FloatOps.hostNegf (FloatOps.addf (FloatOps.dotGeneral d none .single x0 x3 (ix2 p (0 : Fin 1)))
        (broadcastInDim ⟨2, ![M, 1]⟩ ![0, 1] hbM1 (broadcastInDim ⟨2, ![1, 1]⟩ ![1] hb11 x4) (ix2 p (0 : Fin 1)))))))) = _
  rw [Cert.BlockMatmul.dotGeneral_fin d hrank hsize hl0 hl1 hr0 hr1 none .single x0 x3 (ix2 p (0 : Fin 1)),
    show broadcastInDim ⟨2, ![M, 1]⟩ ![0, 1] hbM1 (broadcastInDim ⟨2, ![1, 1]⟩ ![1] hb11 x4) (ix2 p (0 : Fin 1)) = x4 (ix1 (0 : Fin 1)) from one_entry x4 _,
    Ideal.ofBits_def, Ideal.ofBits_one_f32]
  rfl

end Cert.GateRows

end
-- ==== Proof.ValueIdeal.lean ====
/-
  What the idealized kernel program computes, at the exact values. Each gate kernel writes back, point by point, blocks of
  rows of one array: the gated array `x (p, q) · σ (Σₖ x (p, k) · w (k, 0) + b)` of its feature array, weight column and
  bias — because a gated entry depends on its own row only, each block of rows can be computed from that block alone, and
  the blocks of 4000 (atoms) or 8000 (bonds) rows tile the array. The nine host operations that follow scatter-add the
  two gated arrays by graph index into zero arrays and join them with the global features; they are kept as ONE function
  `pooled` of the two gated arrays, the two index vectors and the global features, never opened.
-/
import proofs.«177073_j77635828843232_1_alg».proof.Proof.RunIdeal
import proofs.«177073_j77635828843232_1_alg».proof.Proof.LibGateRows
import Idealize.ShloMosaic.Lib.Pipeline.Value
import Idealize.ShloMosaic.Lib.StableHlo.Run

set_option maxRecDepth 16384

noncomputable section

namespace Cert.KernelIdeal.Hand

open Cert.KernelIdeal.Gen Cert.GateRows
open Idealize.ShloMosaic Idealize.ShloMosaic.TcCoe Idealize.ShloMosaic.ValueIdx Idealize.ShloMosaic.StableHlo
open Idealize.SL Idealize.SL.Sem
open Idealize.ShloMosaic.Pipeline (Dat Cfg Window)

theorem hz2 : (![0, 0] : Fin 2 → Nat) = fun _ => 0 := funext fun a => by fin_cases a <;> rfl
theorem hz1 : (![0] : Fin 1 → Nat) = fun _ => 0 := funext fun a => by fin_cases a <;> rfl

section Regions
variable (V : (c : Dev nD) → (b : Ref sig .tc) → Buf (Elt Ideal) ((c : Thread nD τ).loc b))

/-! ## Region 0: the atom rows -/

/-- The matmul's dimension record. -/
abbrev d0 : DotDims S4000x256 S256x1 S4000x1 := dot_S4000x256_S256x1_S4000x1_1_0_0_1_n_n
theorem d0_l0 (j : S4000x1.Idx) (k : (d0).contr.Idx) : ((d0).lhsIdx j k 0).val = (j 0).val := by
  unfold DotDims.lhsIdx
  rw [dif_neg (show ¬(0 : Fin S4000x256.rank) ∈ (d0).lhsBatch by decide), dif_pos (show (0 : Fin S4000x256.rank) ∈ (d0).lhsNonContracting by decide)]
  rfl
theorem d0_l1 (j : S4000x1.Idx) (k : (d0).contr.Idx) : ((d0).lhsIdx j k 1).val = (k ⟨0, by decide⟩).val :=
  (d0).lhsIdx_val_of_single rfl j k
theorem d0_r0 (j : S4000x1.Idx) (k : (d0).contr.Idx) : ((d0).rhsIdx j k 0).val = (k ⟨0, by decide⟩).val :=
  (d0).rhsIdx_val_of_single rfl j k
theorem d0_r1 (j : S4000x1.Idx) (k : (d0).contr.Idx) : ((d0).rhsIdx j k 1).val = (j 1).val := by
  unfold DotDims.rhsIdx
  rw [dif_neg (show ¬(1 : Fin S256x1.rank) ∈ (d0).rhsBatch by decide), dif_pos (show (1 : Fin S256x1.rank) ∈ (d0).rhsNonContracting by decide)]
  rfl

/-- The body's stored value is the gated array of the loaded tile, weight column and bias. -/
theorem pay0_eq (x0 : Vec Ideal S4000x256 .f32) (x1 : Vec Ideal S256x1 .f32) (x2 : Vec Ideal S1 .f32) :
    k0_pay1 (F := Ideal) x0 x1 x2 = gated x0 x1 x2 :=
  body_eq_gated (d0) rfl rfl d0_l0 d0_l1 d0_r0 d0_r1 _ _ _ _ x0 x1 x2

/-- The printed index maps over the grid: the row windows sit at block `t`, the weight column and bias at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The weight column's block at any point is the whole column, -/
theorem blkW0 (c : Dev nD) (t : Fin cfg0.N) :
    (iblk0 V c 1 t : S256x1.Idx → EReal) = (V c main_arg3 : S256x1.Idx → EReal) := by
  obtain ⟨-, -, e2, e3, -, -, -⟩ := idx0 t
  funext y
  show V c main_arg3 (((cfg0.win 1).blk t).view.emb y) = V c main_arg3 y
  refine congrArg _ (funext fun a => Fin.ext ?_)
  match a with
  | ⟨0, _⟩ => show win0_1.index t (0 : Fin 2) * 256 + 1 * (y 0).val = (y 0).val; rw [e2]; omega
  | ⟨1, _⟩ => show win0_1.index t (1 : Fin 2) * 1 + 1 * (y 1).val = (y 1).val; rw [e3]; omega
/-- and the bias's block the whole bias. -/
theorem blkb0 (c : Dev nD) (t : Fin cfg0.N) :
    (iblk0 V c 2 t : S1.Idx → EReal) = (V c main_arg4 : S1.Idx → EReal) := by
  obtain ⟨-, -, -, -, e4, -, -⟩ := idx0 t
  funext y
  show V c main_arg4 (((cfg0.win 2).blk t).view.emb y) = V c main_arg4 y
  refine congrArg _ (funext fun a => Fin.ext ?_)
  match a with
  | ⟨0, _⟩ => show win0_2.index t (0 : Fin 1) * 1 + 1 * (y 0).val = (y 0).val; rw [e4]; omega

/-- WHAT POINT `t` WRITES BACK is block `t` of the gated array of the region's three argument arrays: the tile's rows are
    rows `4000·t …` of the feature array, and a gated entry depends on its own row only. -/
theorem flushed0_eq (c : Dev nD) (t : Fin cfg0.N) :
    (dat0 V c).flushed 3 t = ((cfg0.win 3).blk t).view.read (Elt Ideal) (gated (V c main_arg0) (V c main_arg3) (V c main_arg4)) := by
  show (cfg0.win 3).cut (grid0.coords t) ((dat0 V c).after 3 t) = _
  rw [after0_3]
  unfold out0_3
  rw [View.canon_unit_zero hz2]
  simp only [View.ld_unit_zero (S := S4000x256) hz2, View.ld_unit_zero (S := S256x1) hz2, View.ld_unit_zero (S := S1) hz1]
  rw [pay0_eq, blkW0 V c t, blkb0 V c t]
  obtain ⟨e0, e1, -, -, -, e5, e6⟩ := idx0 t
  funext j
  obtain ⟨p, q, rfl⟩ : ∃ (p : Fin 4000) (q : Fin 256), j = ix2 p q := ⟨j 0, j 1, eq_ix2 j⟩
  have ht : t.val < 125 := lt_of_lt_of_eq t.isLt N_0
  have hemb : ((cfg0.win 3).blk t).view.emb (ix2 p q) = (ix2 (⟨t.val * 4000 + p.val, by have := p.isLt; omega⟩ : Fin 500000) q : S500000x256.Idx) :=
    funext fun a => Fin.ext (by
      match a with
      | ⟨0, _⟩ => show win0_3.index t (0 : Fin 2) * 4000 + 1 * p.val = t.val * 4000 + p.val; rw [e5]; omega
      | ⟨1, _⟩ => show win0_3.index t (1 : Fin 2) * 256 + 1 * q.val = q.val; rw [e6]; omega)
  show gated (iblk0 V c 0 t) (V c main_arg3) (V c main_arg4) (ix2 p q) = gated (V c main_arg0) (V c main_arg3) (V c main_arg4) (((cfg0.win 3).blk t).view.emb (ix2 p q))
  rw [hemb]
  refine gated_row _ _ _ _ p _ (fun k => ?_) q
  show V c main_arg0 (((cfg0.win 0).blk t).view.emb (ix2 p k)) = V c main_arg0 (ix2 _ k)
  refine congrArg _ (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 256 + 1 * k.val = k.val; rw [e1]; omega

/-- An index of the result array is in point `t`'s block iff each coordinate is in the block's range on its axis. -/
theorem mem_blk0 (t : Fin cfg0.N) (i : S500000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v0).slice (win0_3.rect t)).set ↔ _
  rw [View.set_slice_whole, Rect.mem_set_unit]
  exact Iff.rfl

/-- The blocks tile the result array: row `r` is in the block of point `r / 4000`. -/
theorem cover0 (i : S500000x256.Idx) : ∃ t : Fin cfg0.N, (cfg0.win 3).flush t = true ∧ i ∈ ((cfg0.win 3).blk t).view.set := by
  have hi0 : (i 0).val < 500000 := (i 0).isLt
  have hi1 : (i 1).val < 256 := (i 1).isLt
  have hN : cfg0.N = 125 := N_0
  obtain ⟨t, ht⟩ : ∃ t : Fin cfg0.N, t.val = (i 0).val / 4000 := ⟨⟨(i 0).val / 4000, by rw [hN]; omega⟩, rfl⟩
  obtain ⟨-, -, -, -, -, e5, e6⟩ := idx0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e5, ht]; omega
  | ⟨1, _⟩ => show win0_3.index t (1 : Fin 2) * 256 ≤ (i 1).val ∧ (i 1).val < win0_3.index t (1 : Fin 2) * 256 + 256; rw [e6]; omega

/-- THE RESULT ARRAY after the region: the gated array of the three argument arrays as the region found them. -/
theorem final0 (c : Dev nD) : (dat0 V c).arrAt 3 cfg0.N = gated (V c main_arg0) (V c main_arg3) (V c main_arg4) :=
  (dat0 V c).arrAt_eq_of_cover 3 _ (fun t _ => flushed0_eq V c t) (cover0)

/-! ## Region 1: the bond rows -/

/-- The matmul's dimension record. -/
abbrev d1 : DotDims S8000x128 S128x1 S8000x1 := dot_S8000x128_S128x1_S8000x1_1_0_0_1_n_n
theorem d1_l0 (j : S8000x1.Idx) (k : (d1).contr.Idx) : ((d1).lhsIdx j k 0).val = (j 0).val := by
  unfold DotDims.lhsIdx
  rw [dif_neg (show ¬(0 : Fin S8000x128.rank) ∈ (d1).lhsBatch by decide), dif_pos (show (0 : Fin S8000x128.rank) ∈ (d1).lhsNonContracting by decide)]
  rfl
theorem d1_l1 (j : S8000x1.Idx) (k : (d1).contr.Idx) : ((d1).lhsIdx j k 1).val = (k ⟨0, by decide⟩).val :=
  (d1).lhsIdx_val_of_single rfl j k
theorem d1_r0 (j : S8000x1.Idx) (k : (d1).contr.Idx) : ((d1).rhsIdx j k 0).val = (k ⟨0, by decide⟩).val :=
  (d1).rhsIdx_val_of_single rfl j k
theorem d1_r1 (j : S8000x1.Idx) (k : (d1).contr.Idx) : ((d1).rhsIdx j k 1).val = (j 1).val := by
  unfold DotDims.rhsIdx
  rw [dif_neg (show ¬(1 : Fin S128x1.rank) ∈ (d1).rhsBatch by decide), dif_pos (show (1 : Fin S128x1.rank) ∈ (d1).rhsNonContracting by decide)]
  rfl

/-- The body's stored value is the gated array of the loaded tile, weight column and bias. -/
theorem pay1_eq (x0 : Vec Ideal S8000x128 .f32) (x1 : Vec Ideal S128x1 .f32) (x2 : Vec Ideal S1 .f32) :
    k1_pay1 (F := Ideal) x0 x1 x2 = gated x0 x1 x2 :=
  body_eq_gated (d1) rfl rfl d1_l0 d1_l1 d1_r0 d1_r1 _ _ _ _ x0 x1 x2

/-- The printed index maps over the grid: the row windows sit at block `t`, the weight column and bias at block zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- The weight column's block at any point is the whole column, -/
theorem blkW1 (c : Dev nD) (t : Fin cfg1.N) :
    (iblk1 V c 1 t : S128x1.Idx → EReal) = (V c main_arg5 : S128x1.Idx → EReal) := by
  obtain ⟨-, -, e2, e3, -, -, -⟩ := idx1 t
  funext y
  show V c main_arg5 (((cfg1.win 1).blk t).view.emb y) = V c main_arg5 y
  refine congrArg _ (funext fun a => Fin.ext ?_)
  match a with
  | ⟨0, _⟩ => show win1_1.index t (0 : Fin 2) * 128 + 1 * (y 0).val = (y 0).val; rw [e2]; omega
  | ⟨1, _⟩ => show win1_1.index t (1 : Fin 2) * 1 + 1 * (y 1).val = (y 1).val; rw [e3]; omega
/-- and the bias's block the whole bias. -/
theorem blkb1 (c : Dev nD) (t : Fin cfg1.N) :
    (iblk1 V c 2 t : S1.Idx → EReal) = (V c main_arg6 : S1.Idx → EReal) := by
  obtain ⟨-, -, -, -, e4, -, -⟩ := idx1 t
  funext y
  show V c main_arg6 (((cfg1.win 2).blk t).view.emb y) = V c main_arg6 y
  refine congrArg _ (funext fun a => Fin.ext ?_)
  match a with
  | ⟨0, _⟩ => show win1_2.index t (0 : Fin 1) * 1 + 1 * (y 0).val = (y 0).val; rw [e4]; omega

/-- WHAT POINT `t` WRITES BACK is block `t` of the gated array of the region's three argument arrays: the tile's rows are
    rows `8000·t …` of the feature array, and a gated entry depends on its own row only. -/
theorem flushed1_eq (c : Dev nD) (t : Fin cfg1.N) :
    (dat1 V c).flushed 3 t = ((cfg1.win 3).blk t).view.read (Elt Ideal) (gated (V c main_arg1) (V c main_arg5) (V c main_arg6)) := by
  show (cfg1.win 3).cut (grid1.coords t) ((dat1 V c).after 3 t) = _
  rw [after1_3]
  unfold out1_3
  rw [View.canon_unit_zero hz2]
  simp only [View.ld_unit_zero (S := S8000x128) hz2, View.ld_unit_zero (S := S128x1) hz2, View.ld_unit_zero (S := S1) hz1]
  rw [pay1_eq, blkW1 V c t, blkb1 V c t]
  obtain ⟨e0, e1, -, -, -, e5, e6⟩ := idx1 t
  funext j
  obtain ⟨p, q, rfl⟩ : ∃ (p : Fin 8000) (q : Fin 128), j = ix2 p q := ⟨j 0, j 1, eq_ix2 j⟩
  have ht : t.val < 125 := lt_of_lt_of_eq t.isLt N_1
  have hemb : ((cfg1.win 3).blk t).view.emb (ix2 p q) = (ix2 (⟨t.val * 8000 + p.val, by have := p.isLt; omega⟩ : Fin 1000000) q : S1000000x128.Idx) :=
    funext fun a => Fin.ext (by
      match a with
      | ⟨0, _⟩ => show win1_3.index t (0 : Fin 2) * 8000 + 1 * p.val = t.val * 8000 + p.val; rw [e5]; omega
      | ⟨1, _⟩ => show win1_3.index t (1 : Fin 2) * 128 + 1 * q.val = q.val; rw [e6]; omega)
  show gated (iblk1 V c 0 t) (V c main_arg5) (V c main_arg6) (ix2 p q) = gated (V c main_arg1) (V c main_arg5) (V c main_arg6) (((cfg1.win 3).blk t).view.emb (ix2 p q))
  rw [hemb]
  refine gated_row _ _ _ _ p _ (fun k => ?_) q
  show V c main_arg1 (((cfg1.win 0).blk t).view.emb (ix2 p k)) = V c main_arg1 (ix2 _ k)
  refine congrArg _ (funext fun a => Fin.ext ?_)
  match a with
  | ⟨0, _⟩ => show win1_0.index t (0 : Fin 2) * 8000 + 1 * p.val = t.val * 8000 + p.val; rw [e0]; omega
  | ⟨1, _⟩ => show win1_0.index t (1 : Fin 2) * 128 + 1 * k.val = k.val; rw [e1]; omega

/-- An index of the result array is in point `t`'s block iff each coordinate is in the block's range on its axis. -/
theorem mem_blk1 (t : Fin cfg1.N) (i : S1000000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v1).slice (win1_3.rect t)).set ↔ _
  rw [View.set_slice_whole, Rect.mem_set_unit]
  exact Iff.rfl

/-- The blocks tile the result array: row `r` is in the block of point `r / 8000`. -/
theorem cover1 (i : S1000000x128.Idx) : ∃ t : Fin cfg1.N, (cfg1.win 3).flush t = true ∧ i ∈ ((cfg1.win 3).blk t).view.set := by
  have hi0 : (i 0).val < 1000000 := (i 0).isLt
  have hi1 : (i 1).val < 128 := (i 1).isLt
  have hN : cfg1.N = 125 := N_1
  obtain ⟨t, ht⟩ : ∃ t : Fin cfg1.N, t.val = (i 0).val / 8000 := ⟨⟨(i 0).val / 8000, by rw [hN]; omega⟩, rfl⟩
  obtain ⟨-, -, -, -, -, e5, e6⟩ := idx1 t
  refine ⟨t, flush1_3 t, ?_⟩
  rw [mem_blk1]
  intro a
  match a with
  | ⟨0, _⟩ => show win1_3.index t (0 : Fin 2) * 8000 ≤ (i 0).val ∧ (i 0).val < win1_3.index t (0 : Fin 2) * 8000 + 8000; rw [e5, ht]; omega
  | ⟨1, _⟩ => show win1_3.index t (1 : Fin 2) * 128 ≤ (i 1).val ∧ (i 1).val < win1_3.index t (1 : Fin 2) * 128 + 128; rw [e6]; omega

/-- THE RESULT ARRAY after the region: the gated array of the three argument arrays as the region found them. -/
theorem final1 (c : Dev nD) : (dat1 V c).arrAt 3 cfg1.N = gated (V c main_arg1) (V c main_arg5) (V c main_arg6) :=
  (dat1 V c).arrAt_eq_of_cover 3 _ (fun t _ => flushed1_eq V c t) (cover1)

end Regions

/-! ## The nine host operations as one function -/

variable {F : FTy → Type} [FloatOps F]

/-- Scatter-add each gated array's rows by graph index into a zero array, and join the two pooled arrays with the global
    features along the feature axis. -/
def pooled (g0 : (⟨S500000x256, .f32⟩ : BufTy).Contents (Elt F)) (g1 : (⟨S1000000x128, .f32⟩ : BufTy).Contents (Elt F))
    (a7 : (⟨S500000, .i32⟩ : BufTy).Contents (Elt F)) (a8 : (⟨S1000000, .i32⟩ : BufTy).Contents (Elt F))
    (a2 : (⟨S4096x64, .f32⟩ : BufTy).Contents (Elt F)) : (⟨S4096x448, .f32⟩ : BufTy).Contents (Elt F) :=
  concatenate S4096x448 1
    [⟨S4096x256, Host.scatterAdd scatter_S4096x256_S500000x1_S500000x256_1_0_0_1 (broadcastInDim S4096x256 ![] bcast_S_S4096x256 (constant (F := F) S_ .f32 0x00000000#32)) (broadcastInDim S500000x1 ![0] bcast_S500000_S500000x1_0 a7) g0⟩,
     ⟨S4096x128, Host.scatterAdd scatter_S4096x128_S1000000x1_S1000000x128_1_0_0_1 (broadcastInDim S4096x128 ![] bcast_S_S4096x128 (constant (F := F) S_ .f32 0x00000000#32)) (broadcastInDim S1000000x1 ![0] bcast_S1000000_S1000000x1_0 a8) g1⟩,
     ⟨S4096x64, a2⟩] concatenates_S4096x256_S4096x128_S4096x64_S4096x448_d1

/-- After the nine host operations the result buffer holds `pooled` of the two kernels' result arrays, the two index
    vectors and the global features, as they stood before the operations. -/
theorem after_pooled (W : Valuation τ sig (Elt F)) :
    StableHlo.after hostOps2 W (Proc.devRef .tc main_v8)
      = pooled (W (Proc.devRef .tc main_v0)) (W (Proc.devRef .tc main_v1)) (W (Proc.devRef .tc main_arg7)) (W (Proc.devRef .tc main_arg8)) (W (Proc.devRef .tc main_arg2)) := by
  after_results_simp <;> rfl

/-! ## The result of the run -/

variable (m : (ℓ : Loc nD τ sig) → Buf (Elt Ideal) ℓ) (ρ : Dev nD → PrngReg)

/-- What the kernel program's result buffer holds at the end, as a function of the launch memory. -/
def result (c : Dev nD) : (⟨S4096x448, .f32⟩ : BufTy).Contents (Elt Ideal) :=
  pooled (gated (m ((c : Thread nD τ).loc main_arg0)) (m ((c : Thread nD τ).loc main_arg3)) (m ((c : Thread nD τ).loc main_arg4)))
    (gated (m ((c : Thread nD τ).loc main_arg1)) (m ((c : Thread nD τ).loc main_arg5)) (m ((c : Thread nD τ).loc main_arg6)))
    (m ((c : Thread nD τ).loc main_arg7)) (m ((c : Thread nD τ).loc main_arg8)) (m ((c : Thread nD τ).loc main_arg2))

/-- The first kernel's result array after both kernels: the gated atom array of the launch contents. -/
theorem U2_main_v0 (c : Dev nD) : U2 m ρ c (Proc.devRef .tc main_v0)
    = gated (m ((c : Thread nD τ).loc main_arg0)) (m ((c : Thread nD τ).loc main_arg3)) (m ((c : Thread nD τ).loc main_arg4)) :=
  calc U2 m ρ c (Proc.devRef .tc main_v0)
    _ = U1 m ρ c (Proc.devRef .tc main_v0) := U2_of_ne m ρ c main_v0 (by decide)
    _ = (dat0 (V0 m ρ) c).arrAt 3 cfg0.N := U1_arr m ρ c 3
    _ = _ := final0 (V0 m ρ) c

/-- The second kernel's result array: the gated bond array of the launch contents (the first kernel wrote none of its inputs). -/
theorem U2_main_v1 (c : Dev nD) : U2 m ρ c (Proc.devRef .tc main_v1)
    = gated (m ((c : Thread nD τ).loc main_arg1)) (m ((c : Thread nD τ).loc main_arg5)) (m ((c : Thread nD τ).loc main_arg6)) := by
  have e1 : V1 m ρ c main_arg1 = m ((c : Thread nD τ).loc main_arg1) := U1_of_ne m ρ c main_arg1 (by decide)
  have e5 : V1 m ρ c main_arg5 = m ((c : Thread nD τ).loc main_arg5) := U1_of_ne m ρ c main_arg5 (by decide)
  have e6 : V1 m ρ c main_arg6 = m ((c : Thread nD τ).loc main_arg6) := U1_of_ne m ρ c main_arg6 (by decide)
  calc U2 m ρ c (Proc.devRef .tc main_v1)
    _ = (dat1 (V1 m ρ) c).arrAt 3 cfg1.N := U2_arr m ρ c 3
    _ = gated (V1 m ρ c main_arg1) (V1 m ρ c main_arg5) (V1 m ρ c main_arg6) := final1 (V1 m ρ) c
    _ = _ := by rw [e1, e5, e6]

theorem U2_of_launch (c : Dev nD) (b : Ref sig .tc) (h0 : ∀ w, Pipeline.arrRef spec0 w ≠ b) (h1 : ∀ w, Pipeline.arrRef spec1 w ≠ b) :
    U2 m ρ c (Proc.devRef .tc b) = m ((c : Thread nD τ).loc b) :=
  (U2_of_ne m ρ c b h1).trans (U1_of_ne m ρ c b h0)

/-- The last boundary's contents of the result buffer. -/
theorem U3_main_v8 (c : Dev nD) : U3 m ρ c (Proc.devRef .tc main_v8) = result m c := by
  show StableHlo.after hostOps2 (U2 m ρ c) (Proc.devRef .tc main_v8) = _
  rw [after_pooled, U2_main_v0, U2_main_v1, U2_of_launch m ρ c main_arg7 (by decide) (by decide),
    U2_of_launch m ρ c main_arg8 (by decide) (by decide), U2_of_launch m ρ c main_arg2 (by decide) (by decide)]
  rfl

/-- THE KERNEL PROGRAM'S RUN: every weakly fair execution terminates with the result buffer at `result` and the nine
    argument arrays as launched. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v8 (by decide))).trans (U3_main_v8 m ρ c),
      (h c _ (mem_uc main_arg0 (by decide))).trans (U3_main_arg0 m ρ c),
      (h c _ (mem_uc main_arg1 (by decide))).trans (U3_main_arg1 m ρ c),
      (h c _ (mem_uc main_arg2 (by decide))).trans (U3_main_arg2 m ρ c),
      (h c _ (mem_uc main_arg3 (by decide))).trans (U3_main_arg3 m ρ c),
      (h c _ (mem_uc main_arg4 (by decide))).trans (U3_main_arg4 m ρ c),
      (h c _ (mem_uc main_arg5 (by decide))).trans (U3_main_arg5 m ρ c),
      (h c _ (mem_uc main_arg6 (by decide))).trans (U3_main_arg6 m ρ c),
      (h c _ (mem_uc main_arg7 (by decide))).trans (U3_main_arg7 m ρ c),
      (h c _ (mem_uc main_arg8 (by decide))).trans (U3_main_arg8 m ρ c)⟩) (run_all m ρ)

end Cert.KernelIdeal.Hand

end
-- ==== Proof.RefGate.lean ====
/-
  The reference's two gated arrays. The reference computes, for the atom and for the bond features, the whole array
  `x · σ (x · w + b)` with the logistic spelt out on the host (negate, exponential, one plus, one divided by) and the bias
  broadcast to `[1, 1]` and then down the rows. At the exact values that is the gated array of `x`, `w` and `b`.
-/
import proofs.«177073_j77635828843232_1_alg».proof.Proof.Gen.ReferenceIdeal.Read
import proofs.«177073_j77635828843232_1_alg».proof.Proof.LibGateRows

noncomputable section

namespace Cert.ReferenceIdeal.RefValue

open Cert.ReferenceIdeal Cert.ReferenceIdeal.Gen Cert.ReferenceIdeal.Read Cert.GateRows
open Idealize.ShloMosaic Idealize.ShloMosaic.TcCoe

/-- The atom features times the logistic of their score, in the reference's spelling, is their gated array. -/
theorem gate_atoms (x0 : (⟨S500000x256, .f32⟩ : BufTy).Contents (Elt Ideal)) (x3 : (⟨S256x1, .f32⟩ : BufTy).Contents (Elt Ideal))
    (x4 : (⟨S1, .f32⟩ : BufTy).Contents (Elt Ideal)) :
    mulf (F := Ideal) (x0) (broadcastInDim S500000x256 ![0, 1] bcast_S500000x1_S500000x256_0_1 (Host.divf (broadcastInDim S500000x1 ![] bcast_S_S500000x1 (constant (F := Ideal) S_ .f32 0x3F800000#32)) (addf (broadcastInDim S500000x1 ![] bcast_S_S500000x1 (constant (F := Ideal) S_ .f32 0x3F800000#32)) (Host.exp (Host.negf (addf (Host.dotGeneral (φ₁ := .f32) (φ₂ := .f32) dot_S500000x256_S256x1_S500000x1_1_0_0_1_n_n none (x0) (x3)) (broadcastInDim S500000x1 ![0, 1] bcast_S1x1_S500000x1_0_1 (broadcastInDim S1x1 ![1] bcast_S1_S1x1_1 (x4)))))))))
      = gated x0 x3 x4 :=
  host_eq_gated dot_S500000x256_S256x1_S500000x1_1_0_0_1_n_n rfl rfl lhs_main_v0_0 lhs_main_v0_1 rhs_main_v0_0 rhs_main_v0_1 _ _ _ _ x0 x3 x4

/-- The same for the bond features. -/
theorem gate_bonds (x1 : (⟨S1000000x128, .f32⟩ : BufTy).Contents (Elt Ideal)) (x5 : (⟨S128x1, .f32⟩ : BufTy).Contents (Elt Ideal))
    (x6 : (⟨S1, .f32⟩ : BufTy).Contents (Elt Ideal)) :
    mulf (F := Ideal) (x1) (broadcastInDim S1000000x128 ![0, 1] bcast_S1000000x1_S1000000x128_0_1 (Host.divf (broadcastInDim S1000000x1 ![] bcast_S_S1000000x1 (constant (F := Ideal) S_ .f32 0x3F800000#32)) (addf (broadcastInDim S1000000x1 ![] bcast_S_S1000000x1 (constant (F := Ideal) S_ .f32 0x3F800000#32)) (Host.exp (Host.negf (addf (Host.dotGeneral (φ₁ := .f32) (φ₂ := .f32) dot_S1000000x128_S128x1_S1000000x1_1_0_0_1_n_n none (x1) (x5)) (broadcastInDim S1000000x1 ![0, 1] bcast_S1x1_S1000000x1_0_1 (broadcastInDim S1x1 ![1] bcast_S1_S1x1_1 (x6)))))))))
      = gated x1 x5 x6 :=
  host_eq_gated dot_S1000000x128_S128x1_S1000000x1_1_0_0_1_n_n rfl rfl lhs_main_v15_0 lhs_main_v15_1 rhs_main_v15_0 rhs_main_v15_1 _ _ _ _ x1 x5 x6

end Cert.ReferenceIdeal.RefValue

end
-- ==== Proof.Bridge.lean ====
/-
  The two idealized programs compute one function. The reference's result is the join of two scatter-adds of its gated
  arrays and the global features; the kernel program's is the same join and the same scatter-adds applied to what its two
  gate kernels wrote. The gated arrays agree (both are `x (p, q) · σ (Σₖ x (p, k) · w (k, 0) + b)`), and the shared
  scatter-adds and join are carried as one function of them, never opened.
-/
import proofs.«177073_j77635828843232_1_alg».proof.Proof.ValueIdeal
import proofs.«177073_j77635828843232_1_alg».proof.Proof.RefGate

noncomputable section

namespace Cert.Bridge

open Cert.GateRows Idealize.ShloMosaic Idealize.ShloMosaic.TcCoe

/-- The reference's result stage, at the exact values, is the kernel program's `pooled` of the gated atom and bond arrays. -/
theorem result_eq (x0 : (⟨Cert.ReferenceIdeal.S500000x256, .f32⟩ : BufTy).Contents (Elt Ideal)) (x1 : (⟨Cert.ReferenceIdeal.S1000000x128, .f32⟩ : BufTy).Contents (Elt Ideal))
    (x2 : (⟨Cert.ReferenceIdeal.S4096x64, .f32⟩ : BufTy).Contents (Elt Ideal)) (x3 : (⟨Cert.ReferenceIdeal.S256x1, .f32⟩ : BufTy).Contents (Elt Ideal))
    (x4 : (⟨Cert.ReferenceIdeal.S1, .f32⟩ : BufTy).Contents (Elt Ideal)) (x5 : (⟨Cert.ReferenceIdeal.S128x1, .f32⟩ : BufTy).Contents (Elt Ideal))
    (x6 : (⟨Cert.ReferenceIdeal.S1, .f32⟩ : BufTy).Contents (Elt Ideal)) (x7 : (⟨Cert.ReferenceIdeal.S500000, .i32⟩ : BufTy).Contents (Elt Ideal))
    (x8 : (⟨Cert.ReferenceIdeal.S1000000, .i32⟩ : BufTy).Contents (Elt Ideal)) :
    Cert.ReferenceIdeal.Read.val_main_v30 (F := Ideal) x0 x1 x2 x3 x4 x5 x6 x7 x8
      = Cert.KernelIdeal.Hand.pooled (F := Ideal) (gated x0 x3 x4) (gated x1 x5 x6) x7 x8 x2 := by
  rw [← Cert.ReferenceIdeal.Read.val_main_v30_eq, Cert.ReferenceIdeal.RefValue.gate_atoms, Cert.ReferenceIdeal.RefValue.gate_bonds]
  rfl

end Cert.Bridge

end
-- ==== Proof.lean ====
/-
  The certificate of a graph-readout kernel against its jnp reference. Both programs gate every atom row and every bond row
  by the logistic of a linear score, `x (p, q) · σ (Σₖ x (p, k) · w (k, 0) + b)`, scatter-add the gated rows by graph index and
  join the two pooled arrays with the global features. The kernel program computes the gated arrays in two row-blocked
  Pallas kernels (rounding the matmul's operands to bf16, the identity at the exact values; the logistic one operation) and
  the reference on the host (the logistic spelt out). At the exact values the two gated arrays agree entry by entry — the
  logistic IS that quotient, the product into zero and the `dot_general` are one sum, an entry depends on its own row only —
  and the scatter-adds and the join are literally the same operations, so the results are equal on every extended-real input:
  the precondition is never opened. The ideal pass rewrote nothing, so `preserves` is `True`.
  The three frames: the two kernel programs' from their runs through both kernels and the host operations, the reference's
  from its run with the result dropped.
-/
import proofs.«177073_j77635828843232_1_alg».proof.Defs
import proofs.«177073_j77635828843232_1_alg».proof.Proof.Gen.Kernel
import proofs.«177073_j77635828843232_1_alg».proof.Proof.Gen.KernelIdeal
import proofs.«177073_j77635828843232_1_alg».proof.Proof.Gen.ReferenceIdeal
import proofs.«177073_j77635828843232_1_alg».proof.Proof.Gen.Pre_finite_inputs
import proofs.«177073_j77635828843232_1_alg».proof.Proof.Gen.ReferenceIdeal.Run
import proofs.«177073_j77635828843232_1_alg».proof.Proof.Gen.ReferenceIdeal.Read
import proofs.«177073_j77635828843232_1_alg».proof.Proof.RunBits
import proofs.«177073_j77635828843232_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to restate. -/
theorem preserves : Cert.preserves_Kernel_KernelIdeal := trivial

/-- Run from memories agreeing on the arguments, both idealized programs end with the result buffer at `pooled` of the
    gated atom and bond arrays, the index vectors and the global features. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [h0, h1, h2, h3, h4, h5, h6, h7, h8]
  exact (Cert.ReferenceIdeal.Read.val_main_v30_eq _ _ _ _ _ _ _ _ _).trans (Cert.Bridge.result_eq _ _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
